-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S600000x128 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩

abbrev nBuf : Space → Nat
  | .hbm => 58
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S2x600000, .i32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  reduces_S10000x128_S128 : S10000x128.Reduces [0] S128
  shapeCasts_S1x128_S128 : S1x128.ShapeCasts S128
  bcast_S_S128 : S_.BroadcastsInDim S128 (![] : Fin 0 → Fin S128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S50000x128.size a
  hwx0_7 : ∀ i : grid0.Coords, EltTy.bits .f32 = 32 ∨ (Rect.block (s := S50000x128) S10000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S10000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v19_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S50000 : Shape := ⟨1, ![50000]⟩
abbrev S50000x1 : Shape := ⟨2, ![50000, 1]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S2x600000, .i32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is two pipelined regions among three stretches of host operations. Its run is the launch of those four
  segments; at the end every unscoped buffer of a core holds the last boundary's contents (the fold of the host
  stretches and the regions' write-backs from the launch memory). The generated frame reads only the argument buffers
  out of that final state; here the result buffer is read as well: it ends at the fold's value at its own reference.
-/
import proofs.«121748_j11862699671900_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at its reference, and the argument buffers are as launched. -/
theorem run_value : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibLayerNorm.lean ====
/-
  Layer normalisation of the rows of an [m, n] array, read at an entry, on the extended reals.

  For one row h of n entries, a divisor c (the row length, as the program spells it) and a shift e, write
  μ = (Σ_k h k) / c for the row's mean and σ² = (Σ_k (h k − μ)²) / c for its variance; the normalised entry at column q,
  scaled by g and shifted by β, is (h q − μ) · (σ² + e)^(−1/2) · g + β (`normEntry`). Division and the inverse square
  root are the exact operations of the extended reals, so the formula is total: nothing is assumed finite.

  Two programs compute it and both read, at entry (a, b), `normEntry` of row a:
  * the vector chain of a block — a row sum from zero kept as an [m, 1] column, divided by the splat of c, spread across
    the columns and subtracted; the squares summed the same way; the shift added; the inverse square root spread and
    multiplied in — read one entry at a time (`vecNorm_entry`: the scale and the offset enter as the two numbers at the
    entry, wherever the program took them from);
  * the host's chain (`hostLayerNorm`): row sums from zero, made columns, divided by a column of c, spread across the
    columns; the scale and the offset two length-n vectors laid out as [1, n] rows and repeated down the rows
    (`hostLayerNorm_apply`).
  Nothing depends on m: a block of rows and the whole array are read by the same lemmas.
-/
import Idealize.ShloMosaic.PureOps.Ideal.Laws
import Idealize.ShloMosaic.Lib.ValueIdx
import Idealize.ShloMosaic.Lib.ValueLayout
import Idealize.ShloMosaic.Lib.Pipeline.Value
import proofs.«121748_j11862699671900_2_alg».proof.Proof.LibRowWise
import proofs.«121748_j11862699671900_2_alg».proof.Proof.LibColumnCast
import proofs.«121748_j11862699671900_2_alg».proof.Proof.LibColumnBroadcast

noncomputable section

open scoped BigOperators

namespace Cert.LayerNorm

open Idealize.ShloMosaic Idealize.ShloMosaic.ValueIdx Cert.RowWise

/-- The normalised entry of one row at column q: (h q − μ) · (σ² + e)^(−1/2) · g + β, with μ = (Σ h) / c and
    σ² = (Σ (h − μ)²) / c. -/
def normEntry {n : ℕ} (c e : EReal) (h : Fin n → EReal) (q : Fin n) (g β : EReal) : EReal :=
  (h q - Ideal.div (∑ k : Fin n, h k) c)
    * Ideal.rsqrt (Ideal.div (∑ k : Fin n, (h k - Ideal.div (∑ j : Fin n, h j) c) * (h k - Ideal.div (∑ j : Fin n, h j) c)) c + e)
    * g + β

/-- Rows that agree entry by entry have the same normalised entries. -/
theorem normEntry_congr {n : ℕ} (c e : EReal) {h h' : Fin n → EReal} (hh : ∀ k, h k = h' k) (q : Fin n) {g g' β β' : EReal}
    (hg : g = g') (hβ : β = β') : normEntry c e h q g β = normEntry c e h' q g' β' := by
  rw [funext hh, hg, hβ]

/-! ## Pointwise operations at an index, on the extended reals -/

theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem divf_at {s : Shape} (x y : FVec Ideal s .f32) (i : s.Idx) : divf x y i = Ideal.div (x i) (y i) := rfl
theorem hostDivf_at {s : Shape} (x y : FVec Ideal s .f32) (i : s.Idx) : Host.divf x y i = Ideal.div (x i) (y i) := rfl
theorem hostRsqrt_at {s : Shape} (x : FVec Ideal s .f32) (i : s.Idx) : Host.rsqrt x i = Ideal.rsqrt (x i) := rfl

/-! ## The vector chain of a block -/

/-- The row mean as the vector chain spreads it: the row sum from zero, cast to a column, divided by the splat of c and
    broadcast across the columns, reads at (p, k) the mean of row p. -/
theorem vecMean_apply {m n : ℕ} (Z : FVec Ideal ⟨2, ![m, n]⟩ .f32) (c : Ideal .f32)
    (h : (⟨2, ![m, n]⟩ : Shape).Reduces [1] ⟨1, ![m]⟩) (hφ : FKind.Formats .f32)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (k : Fin n) :
    broadcastTo ⟨2, ![m, n]⟩ (divf (shapeCast ⟨2, ![m, 1]⟩ (multiReduction .add [1] ⟨1, ![m]⟩ Z 0x00000000#32 h hφ hadd) hcol)
        (broadcast ⟨2, ![m, 1]⟩ c)) hsp (ix2 p k)
      = Ideal.div (∑ j : Fin n, Z (ix2 p j)) c := by
  rw [Cert.LibColumnBroadcast.broadcastTo_a1_ab_apply, divf_at, Cert.LibColumnCast.shapeCast_a_a1_apply, vecRowSum_apply]
  rfl

/-- One entry of the vector chain: the entry less the row mean, times the inverse square root of the row variance plus
    the shift, times the scale, plus the offset. -/
theorem vecNorm_entry {m n : ℕ} (Z : FVec Ideal ⟨2, ![m, n]⟩ .f32) (c e g β : Ideal .f32)
    (h : (⟨2, ![m, n]⟩ : Shape).Reduces [1] ⟨1, ![m]⟩) (hφ : FKind.Formats .f32)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    FloatOps.addf (FloatOps.mulf (FloatOps.mulf
        (FloatOps.subf (Z (ix2 p q)) (FloatOps.divf (multiReduction .add [1] ⟨1, ![m]⟩ Z 0x00000000#32 h hφ hadd (ix1 p)) c))
        (FloatOps.rsqrt (FloatOps.addf (FloatOps.divf
          (multiReduction .add [1] ⟨1, ![m]⟩
            (mulf
              (subf Z (broadcastTo ⟨2, ![m, n]⟩ (divf (shapeCast ⟨2, ![m, 1]⟩ (multiReduction .add [1] ⟨1, ![m]⟩ Z 0x00000000#32 h hφ hadd) hcol) (broadcast ⟨2, ![m, 1]⟩ c)) hsp))
              (subf Z (broadcastTo ⟨2, ![m, n]⟩ (divf (shapeCast ⟨2, ![m, 1]⟩ (multiReduction .add [1] ⟨1, ![m]⟩ Z 0x00000000#32 h hφ hadd) hcol) (broadcast ⟨2, ![m, 1]⟩ c)) hsp)))
            0x00000000#32 h hφ hadd (ix1 p)) c) e))) g) β
      = normEntry c e (fun k => Z (ix2 p k)) q g β := by
  unfold normEntry
  rw [vecRowSum_apply, vecRowSum_apply]
  simp only [Ideal.addf_def, Ideal.mulf_def, Ideal.subf_def, Ideal.divf_def, Ideal.rsqrt_def]
  refine congrArg (fun s => (Z (ix2 p q) - Ideal.div (∑ k : Fin n, Z (ix2 p k)) c) * Ideal.rsqrt (Ideal.div s c + e) * g + β) ?_
  refine Finset.sum_congr rfl fun k _ => ?_
  rw [mulf_at, subf_at, vecMean_apply]

/-! ## The host's chain -/

/-- A scalar constant spread over an array by the host reads its value at every index. -/
theorem scalarSpread_apply {s : Shape} (w : BitVec 32) (g0 : (⟨0, ![]⟩ : Shape).BroadcastsInDim s ![]) (i : s.Idx) :
    broadcastInDim s ![] g0 (constant (F := Ideal) ⟨0, ![]⟩ .f32 w) i = Ideal.ofBits .f32 w :=
  broadcastInDim_apply _ g0 _ i ix0 (fun a => a.elim0)

/-- The host's layer normalisation of the rows of Z with divisor word cw and shift word ew, scale g and offset β. -/
def hostLayerNorm {m n : ℕ} (cw ew : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (r1 : (⟨1, ![n]⟩ : Shape).BroadcastsInDim ⟨2, ![1, n]⟩ ![1])
    (r2 : (⟨2, ![1, n]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) (g β : FVec Ideal ⟨1, ![n]⟩ .f32) : FVec Ideal ⟨2, ![m, n]⟩ .f32 :=
  addf (mulf (mulf
      (subf Z (broadcastInDim ⟨2, ![m, n]⟩ ![0, 1] g2 (Host.divf
        (broadcastInDim ⟨2, ![m, 1]⟩ ![0] g1 (Host.reduceAdd Z (constant (F := Ideal) ⟨0, ![]⟩ .f32 0x00000000#32) h' hu))
        (broadcastInDim ⟨2, ![m, 1]⟩ ![] gC (constant (F := Ideal) ⟨0, ![]⟩ .f32 cw)))))
      (broadcastInDim ⟨2, ![m, n]⟩ ![0, 1] g2 (Host.rsqrt (addf (Host.divf
        (broadcastInDim ⟨2, ![m, 1]⟩ ![0] g1 (Host.reduceAdd
          (mulf
            (subf Z (broadcastInDim ⟨2, ![m, n]⟩ ![0, 1] g2 (Host.divf
              (broadcastInDim ⟨2, ![m, 1]⟩ ![0] g1 (Host.reduceAdd Z (constant (F := Ideal) ⟨0, ![]⟩ .f32 0x00000000#32) h' hu))
              (broadcastInDim ⟨2, ![m, 1]⟩ ![] gC (constant (F := Ideal) ⟨0, ![]⟩ .f32 cw)))))
            (subf Z (broadcastInDim ⟨2, ![m, n]⟩ ![0, 1] g2 (Host.divf
              (broadcastInDim ⟨2, ![m, 1]⟩ ![0] g1 (Host.reduceAdd Z (constant (F := Ideal) ⟨0, ![]⟩ .f32 0x00000000#32) h' hu))
              (broadcastInDim ⟨2, ![m, 1]⟩ ![] gC (constant (F := Ideal) ⟨0, ![]⟩ .f32 cw))))))
          (constant (F := Ideal) ⟨0, ![]⟩ .f32 0x00000000#32) h' hu))
        (broadcastInDim ⟨2, ![m, 1]⟩ ![] gC (constant (F := Ideal) ⟨0, ![]⟩ .f32 cw)))
        (broadcastInDim ⟨2, ![m, 1]⟩ ![] gC (constant (F := Ideal) ⟨0, ![]⟩ .f32 ew))))))
      (broadcastInDim ⟨2, ![m, n]⟩ ![0, 1] r2 (broadcastInDim ⟨2, ![1, n]⟩ ![1] r1 g)))
    (broadcastInDim ⟨2, ![m, n]⟩ ![0, 1] r2 (broadcastInDim ⟨2, ![1, n]⟩ ![1] r1 β))

/-- The row mean as the host spreads it reads, at (a, b), the mean of row a. -/
theorem hostMean_apply {m n : ℕ} (cw : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (Host.divf
        (broadcastInDim ⟨2, ![m, 1]⟩ ![0] g1 (Host.reduceAdd Z (constant (F := Ideal) ⟨0, ![]⟩ .f32 0x00000000#32) h' hu))
        (broadcastInDim ⟨2, ![m, 1]⟩ ![] gC (constant (F := Ideal) ⟨0, ![]⟩ .f32 cw))) (ix2 a b)
      = Ideal.div (∑ k : Fin n, Z (ix2 a k)) (Ideal.ofBits .f32 cw) := by
  rw [colSpread_apply, hostDivf_at, colLift_apply, hostRowSum_apply Z h' h hu a, scalarSpread_apply]

/-- The host's layer normalisation reads, at (a, b), the normalised entry of row a at column b. -/
theorem hostLayerNorm_apply {m n : ℕ} (cw ew : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (r1 : (⟨1, ![n]⟩ : Shape).BroadcastsInDim ⟨2, ![1, n]⟩ ![1])
    (r2 : (⟨2, ![1, n]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel)
    (Z : FVec Ideal ⟨2, ![m, n]⟩ .f32) (g β : FVec Ideal ⟨1, ![n]⟩ .f32) (a : Fin m) (b : Fin n) :
    hostLayerNorm cw ew gC g1 g2 r1 r2 h' hu Z g β (ix2 a b)
      = normEntry (Ideal.ofBits .f32 cw) (Ideal.ofBits .f32 ew) (fun k => Z (ix2 a k)) b (g (ix1 b)) (β (ix1 b)) := by
  unfold hostLayerNorm normEntry
  rw [addf_at, mulf_at, mulf_at, subf_at, hostMean_apply cw gC g1 g2 h' h hu Z a b, biasRow_apply, biasRow_apply, colSpread_apply,
    hostRsqrt_at, addf_at, hostDivf_at, colLift_apply, hostRowSum_apply _ h' h hu a, scalarSpread_apply, scalarSpread_apply]
  refine congrArg (fun s => (Z (ix2 a b) - Ideal.div (∑ k : Fin n, Z (ix2 a k)) (Ideal.ofBits .f32 cw))
      * Ideal.rsqrt (Ideal.div s (Ideal.ofBits .f32 cw) + Ideal.ofBits .f32 ew) * g (ix1 b) + β (ix1 b)) ?_
  refine Finset.sum_congr rfl fun k _ => ?_
  rw [mulf_at, subf_at, hostMean_apply cw gC g1 g2 h' h hu Z a k]

end Cert.LayerNorm

end
-- ==== Proof.Spec.lean ====
/-
  The block computed by both programs, written once, entry by entry, on the extended reals.

  From an aggregate A : [m,128] (for each node, the sum over its incoming edges of the source node's features plus the
  edge's features) a two-layer perceptron gives h = max(A·W₁ + b₁, 0)·W₂ + b₂; each row of h is normalised over its 128
  features, y(p,q) = (h(p,q) − μ_p)·(σ²_p + ε)^(−1/2)·g_q + β_q with μ_p, σ²_p the row's mean and (biased) variance;
  then every column q of y is normalised over the N nodes about a scaled mean: with M_q = (Σ_p y(p,q))/N and a_q the
  mean's scale, the result is max((y(p,q) − a_q·M_q)·(V_q + ε)^(−1/2)·w_q + c_q, 0) + x(p,q), x the node features.

  The two programs differ only in V_q. One takes the mean of the squared centred entries,
  V_q = (Σ_p (y(p,q) − a_q·M_q)²)/N; the other expands the square,
  V_q = (Σ_p y(p,q)²)/N − M_q²·a_q·(2 − a_q). They agree as soon as every y(p,q) and a_q is a real number.
-/
import Idealize.ShloMosaic.PureOps.Ideal
import Idealize.ShloMosaic.Lib.ValueIdx
import proofs.«121748_j11862699671900_2_alg».proof.Proof.LibLayerNorm

noncomputable section

open scoped BigOperators

namespace Cert.Spec

open Idealize.ShloMosaic Cert.LayerNorm

/-- 128, the number of features of a row. -/
abbrev c128 : EReal := Ideal.ofBits .f32 0x43000000#32
/-- The stabiliser ε added to a variance (the binary32 value nearest 10⁻⁵). -/
abbrev eps : EReal := Ideal.ofBits .f32 0x3727C5AC#32
/-- 50000, the number of nodes. -/
abbrev cN : EReal := Ideal.ofBits .f32 0x47435000#32
abbrev two : EReal := Ideal.ofBits .f32 0x40000000#32
abbrev zero : EReal := Ideal.ofBits .f32 0x00000000#32

/-- The hidden layer max(A·W₁ + b₁, 0) at row p, unit j. -/
def hid {m : ℕ} (A : Fin m → Fin 128 → EReal) (W1 : Fin 128 → Fin 128 → EReal) (b1 : Fin 128 → EReal)
    (p : Fin m) (j : Fin 128) : EReal :=
  max ((∑ c : Fin 128, A p c * W1 c j) + b1 j) zero

/-- The perceptron's output max(A·W₁ + b₁, 0)·W₂ + b₂ at row p, feature q. -/
def lin {m : ℕ} (A : Fin m → Fin 128 → EReal) (W1 : Fin 128 → Fin 128 → EReal) (b1 : Fin 128 → EReal)
    (W2 : Fin 128 → Fin 128 → EReal) (b2 : Fin 128 → EReal) (p : Fin m) (q : Fin 128) : EReal :=
  (∑ c : Fin 128, hid A W1 b1 p c * W2 c q) + b2 q

/-- Row p of H normalised over its 128 entries, at column q, with scale g and shift β. -/
def lnE {m : ℕ} (H : Fin m → Fin 128 → EReal) (g β : Fin 128 → EReal) (p : Fin m) (q : Fin 128) : EReal :=
  normEntry c128 eps (H p) q (g q) (β q)

/-- The row-normalised perceptron output y(p,q). -/
def Yof {m : ℕ} (A : Fin m → Fin 128 → EReal) (W1 : Fin 128 → Fin 128 → EReal) (b1 : Fin 128 → EReal)
    (W2 : Fin 128 → Fin 128 → EReal) (b2 g β : Fin 128 → EReal) : Fin m → Fin 128 → EReal :=
  lnE (lin A W1 b1 W2 b2) g β

/-- The mean M_q of column q over the N rows. -/
def colMean {N : ℕ} (Y : Fin N → Fin 128 → EReal) (q : Fin 128) : EReal := Ideal.div (∑ p, Y p q) cN

/-- The column's variance about the scaled mean, as the mean of the squared centred entries. -/
def varCentred {N : ℕ} (Y : Fin N → Fin 128 → EReal) (a : Fin 128 → EReal) (q : Fin 128) : EReal :=
  Ideal.div (∑ p, (Y p q - a q * colMean Y q) * (Y p q - a q * colMean Y q)) cN

/-- The same variance with the square expanded: the mean of squares less M²·a·(2 − a). -/
def varExpanded {N : ℕ} (Y : Fin N → Fin 128 → EReal) (a : Fin 128 → EReal) (q : Fin 128) : EReal :=
  Ideal.div (∑ p, Y p q * Y p q) cN - colMean Y q * colMean Y q * a q * (two - a q)

/-- One entry of the result: centre by the scaled mean, scale by the inverse deviation, affine map, clamp at 0, add
    the node's own feature. -/
def finish (y x a mu var w c : EReal) : EReal :=
  max ((y - a * mu) * Ideal.rsqrt (var + eps) * w + c) zero + x

/-- The whole result at (p,q), the column variance V left as a parameter (the one place the programs differ). -/
def result {N : ℕ} (V : (Fin N → Fin 128 → EReal) → (Fin 128 → EReal) → Fin 128 → EReal)
    (Y X : Fin N → Fin 128 → EReal) (a w c : Fin 128 → EReal) (p : Fin N) (q : Fin 128) : EReal :=
  finish (Y p q) (X p q) (a q) (colMean Y q) (V Y a q) (w q) (c q)

end Cert.Spec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.Payloads.lean ====
/-
  What the two kernel bodies compute, one entry at a time, on the extended reals.

  First body (a block of 10000 rows of the aggregate): the perceptron and the row normalisation give the block of y;
  the two accumulators receive the block's column sums of y and of y². Second body: the result's entry from y, the
  node feature and the five [1,128] rows (mean scale, column mean, column variance, weight, offset).
-/
import proofs.«121748_j11862699671900_2_alg».proof.Proof.Gen.KernelIdeal.Skeleton
import proofs.«121748_j11862699671900_2_alg».proof.Proof.Spec
import proofs.«121748_j11862699671900_2_alg».proof.Proof.LibPlainMatmul
import proofs.«121748_j11862699671900_2_alg».proof.Proof.LibAxisSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx
open Cert.LayerNorm Cert.RowWise Cert.LibAxisSums Cert.LibColumnCast Cert.LibColumnBroadcast

/-- The inverse square root of an array at an index. -/
theorem rsqrt_at {s : Shape} (x : FVec Ideal s .f32) (i : s.Idx) : rsqrt x i = Ideal.rsqrt (x i) := rfl

/-- The printed contraction record is the plain m×k by k×n one. -/
theorem dot_plain : dot_S10000x128_S128x128_S10000x128_1_0_0_1_n_n = DotDims.plain 10000 128 128 := rfl

/-- y's block from the normalised block z = (h − μ)·(σ² + ε)^(−1/2): z·g + β, the scale and offset read from their rows. -/
theorem affine_entry (v36 : FVec Ideal S10000x128 .f32) (v37 v41 : FVec Ideal S1x128 .f32) (p : Fin 10000) (q : Fin 128) :
    k0_pay1 (F := Ideal) v36 v37 v41 (ix2 p q) = v36 (ix2 p q) * v37 (ix2 (0 : Fin 1) q) + v41 (ix2 (0 : Fin 1) q) := by
  unfold k0_pay1
  simp only [addf_apply, mulf_apply, broadcastTo_1b_ab_apply, shapeCast_self]

/-- The perceptron's output inside the first body, at an entry: the matrix products are sums over the 128 inner
    indices, the biases come from their [1,128] rows, the clamp is the maximum with zero. -/
theorem lin_entry (v3 : FVec Ideal S10000x128 .f32) (v5 v13 : FVec Ideal S128x128 .f32) (v7 v15 : FVec Ideal S1x128 .f32)
    (a : Fin 10000) (k : Fin 128) :
    addf (matmul dot_S10000x128_S128x128_S10000x128_1_0_0_1_n_n none
        (maximumf (addf (matmul dot_S10000x128_S128x128_S10000x128_1_0_0_1_n_n none
            (shapeCast S10000x128 v3 shapeCasts_S10000x128_S10000x128) v5 (constant S10000x128 .f32 0x00000000#32))
          (broadcastTo S10000x128 (shapeCast S1x128 v7 shapeCasts_S1x128_S1x128) broadcasts_S1x128_S10000x128))
          (broadcast S10000x128 (Scalar.ofBits .f32 0x00000000#32 : Ideal .f32)))
        v13 (constant S10000x128 .f32 0x00000000#32))
      (broadcastTo S10000x128 (shapeCast S1x128 v15 shapeCasts_S1x128_S1x128) broadcasts_S1x128_S10000x128) (ix2 a k)
      = Spec.lin (fun p c => v3 (ix2 p c)) (fun c j => v5 (ix2 c j)) (fun j => v7 (ix2 (0 : Fin 1) j))
          (fun c j => v13 (ix2 c j)) (fun j => v15 (ix2 (0 : Fin 1) j)) a k := by
  simp only [dot_plain, addf_apply, matmul_plain_zero_apply, maximumf_apply, broadcastTo_1b_ab_apply, shapeCast_self,
    broadcast_apply]
  rfl

/-- The normalised block z of the first body at an entry, from the perceptron's output block H: the entry less its
    row's mean, times the inverse square root of the row's variance plus ε. -/
theorem norm_entry (H : FVec Ideal S10000x128 .f32) (p : Fin 10000) (q : Fin 128) :
    mulf (subf H (broadcastTo S10000x128 (divf (shapeCast S10000x1 (multiReduction .add [1] S10000 H 0x00000000#32 reduces_S10000x128_S10000 (.inl rfl) rfl) shapeCasts_S10000_S10000x1)
          (broadcast S10000x1 (Scalar.ofBits .f32 0x43000000#32 : Ideal .f32))) broadcasts_S10000x1_S10000x128))
      (broadcastTo S10000x128 (rsqrt (addf (divf (shapeCast S10000x1
          (multiReduction .add [1] S10000
            (mulf (subf H (broadcastTo S10000x128 (divf (shapeCast S10000x1 (multiReduction .add [1] S10000 H 0x00000000#32 reduces_S10000x128_S10000 (.inl rfl) rfl) shapeCasts_S10000_S10000x1)
                (broadcast S10000x1 (Scalar.ofBits .f32 0x43000000#32 : Ideal .f32))) broadcasts_S10000x1_S10000x128))
              (subf H (broadcastTo S10000x128 (divf (shapeCast S10000x1 (multiReduction .add [1] S10000 H 0x00000000#32 reduces_S10000x128_S10000 (.inl rfl) rfl) shapeCasts_S10000_S10000x1)
                (broadcast S10000x1 (Scalar.ofBits .f32 0x43000000#32 : Ideal .f32))) broadcasts_S10000x1_S10000x128)))
            0x00000000#32 reduces_S10000x128_S10000 (.inl rfl) rfl) shapeCasts_S10000_S10000x1)
          (broadcast S10000x1 (Scalar.ofBits .f32 0x43000000#32 : Ideal .f32)))
        (broadcast S10000x1 (Scalar.ofBits .f32 0x3727C5AC#32 : Ideal .f32)))) broadcasts_S10000x1_S10000x128) (ix2 p q)
      = (H (ix2 p q) - Ideal.div (∑ k : Fin 128, H (ix2 p k)) Spec.c128)
          * Ideal.rsqrt (Ideal.div (∑ k : Fin 128, (H (ix2 p k) - Ideal.div (∑ j : Fin 128, H (ix2 p j)) Spec.c128)
              * (H (ix2 p k) - Ideal.div (∑ j : Fin 128, H (ix2 p j)) Spec.c128)) Spec.c128 + Spec.eps) := by
  have rowSum : ∀ Z : FVec Ideal S10000x128 .f32,
      multiReduction .add [1] S10000 Z 0x00000000#32 reduces_S10000x128_S10000 (.inl rfl) rfl (ix1 p)
        = ∑ k : Fin 128, Z (ix2 p k) := fun Z => sum_last2_apply Z _ _ _ p
  simp only [mulf_apply, subf_apply, addf_apply, divf_apply, rsqrt_at, broadcastTo_a1_ab_apply, shapeCast_a_a1_apply,
    broadcast_apply, rowSum]
  rfl

/-- The block of y the first body stores, at an entry: the specification's y of the block's rows of the aggregate. -/
theorem y_entry (v3 : FVec Ideal S10000x128 .f32) (v5 v13 : FVec Ideal S128x128 .f32) (v7 v15 v37 v41 : FVec Ideal S1x128 .f32)
    (p : Fin 10000) (q : Fin 128) :
    k0_pay1 (F := Ideal) (k0_pay6 v3 v5 v7 v13 v15) v37 v41 (ix2 p q)
      = Spec.Yof (fun p c => v3 (ix2 p c)) (fun c j => v5 (ix2 c j)) (fun j => v7 (ix2 (0 : Fin 1) j))
          (fun c j => v13 (ix2 c j)) (fun j => v15 (ix2 (0 : Fin 1) j)) (fun j => v37 (ix2 (0 : Fin 1) j))
          (fun j => v41 (ix2 (0 : Fin 1) j)) p q := by
  rw [affine_entry]
  unfold k0_pay6
  dsimp only
  rw [norm_entry]
  simp only [lin_entry]
  rfl

/-- The first accumulator after the body: what it held plus the block's column sum of y. -/
theorem sum_entry (v36 : FVec Ideal S10000x128 .f32) (v37 v41 v46 : FVec Ideal S1x128 .f32) (q : Fin 128) :
    k0_pay2 (F := Ideal) v36 v37 v41 v46 (ix2 (0 : Fin 1) q)
      = v46 (ix2 (0 : Fin 1) q) + ∑ p : Fin 10000, k0_pay1 (F := Ideal) v36 v37 v41 (ix2 p q) := by
  have colSum : ∀ Z : FVec Ideal S10000x128 .f32,
      multiReduction .add [0] S128 Z 0x00000000#32 reduces_S10000x128_S128 (.inl rfl) rfl (ix1 q)
        = ∑ p : Fin 10000, Z (ix2 p q) := fun Z => sum_first2_apply Z _ _ _ q
  unfold k0_pay2
  simp only [addf_apply, shapeCast_self, shapeCast_a_1a_apply, colSum]

/-- The second accumulator after the body: what it held plus the block's column sum of y². -/
theorem sumsq_entry (v36 : FVec Ideal S10000x128 .f32) (v37 v41 v52 : FVec Ideal S1x128 .f32) (q : Fin 128) :
    k0_pay3 (F := Ideal) v36 v37 v41 v52 (ix2 (0 : Fin 1) q)
      = v52 (ix2 (0 : Fin 1) q)
        + ∑ p : Fin 10000, k0_pay1 (F := Ideal) v36 v37 v41 (ix2 p q) * k0_pay1 (F := Ideal) v36 v37 v41 (ix2 p q) := by
  have colSum : ∀ Z : FVec Ideal S10000x128 .f32,
      multiReduction .add [0] S128 Z 0x00000000#32 reduces_S10000x128_S128 (.inl rfl) rfl (ix1 q)
        = ∑ p : Fin 10000, Z (ix2 p q) := fun Z => sum_first2_apply Z _ _ _ q
  unfold k0_pay3
  simp only [addf_apply, mulf_apply, shapeCast_self, shapeCast_a_1a_apply, colSum]

/-- The accumulators' reset at the first grid point: zero everywhere. -/
theorem reset_entry (i : S1x128.Idx) : (k0_pay4 (F := Ideal)) i = Spec.zero ∧ (k0_pay5 (F := Ideal)) i = Spec.zero := ⟨rfl, rfl⟩

/-- The second body's stored block at an entry: the specification's finishing step of y, the node feature and the
    five rows at column q. -/
theorem finish_entry (v0 v26 : FVec Ideal S10000x128 .f32) (v2 v4 v9 v16 v20 : FVec Ideal S1x128 .f32) (p : Fin 10000) (q : Fin 128) :
    k1_pay1 (F := Ideal) v0 v2 v4 v9 v16 v20 v26 (ix2 p q)
      = Spec.finish (v0 (ix2 p q)) (v26 (ix2 p q)) (v2 (ix2 (0 : Fin 1) q)) (v4 (ix2 (0 : Fin 1) q)) (v9 (ix2 (0 : Fin 1) q))
          (v16 (ix2 (0 : Fin 1) q)) (v20 (ix2 (0 : Fin 1) q)) := by
  unfold k1_pay1
  simp only [addf_apply, mulf_apply, subf_apply, maximumf_apply, rsqrt_at, broadcastTo_1b_ab_apply, shapeCast_self,
    broadcast_apply]
  rfl

end Cert.KernelIdeal.Payloads

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.Region0.lean ====
/-
  The first region's three output arrays after its run.

  The region walks the 50000 rows of the aggregate in five blocks of 10000. At block t it computes the block of y (the
  row-normalised perceptron output of those rows) and writes it back to the same rows; two [1,128] accumulators stay
  in place across the five points: the first point resets them to zero, every point adds the block's column sums of y
  and of y², and the last point writes them back. So after the run the first array holds y, and the accumulators hold
  zero plus the column sums, over all 50000 rows, of y and of y²: a sum over rows below 10000·(t+1) grows by one block
  per point.
-/
import proofs.«121748_j11862699671900_2_alg».proof.Proof.Gen.KernelIdeal.Frame
import proofs.«121748_j11862699671900_2_alg».proof.Proof.Payloads
import proofs.«121748_j11862699671900_2_alg».proof.Proof.LibSegmentSum
import Idealize.ShloMosaic.Lib.Pipeline.Value
import Idealize.ShloMosaic.Lib.Tactic

set_option maxRecDepth 16384

noncomputable section

open scoped BigOperators

namespace Cert.KernelIdeal.Region0

open Cert.KernelIdeal Cert.KernelIdeal.Gen Cert.KernelIdeal.Payloads
open Idealize.ShloMosaic Idealize.ShloMosaic.TcCoe Idealize.ShloMosaic.Tactic Idealize.ShloMosaic.ValueIdx Idealize.SL.Sem
open Idealize.ShloMosaic.Pipeline (Dat Cfg Window)
open SegmentSum

theorem hz : (![0, 0] : Fin 2 → Nat) = fun _ => 0 := funext fun a => by fin_cases a <;> rfl

/-! ## What each case of the body leaves in the three outputs' buffers -/

theorem out_A_7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec Ideal S10000x128 .f32) (x1 : Vec Ideal S128x128 .f32) (x2 : Vec Ideal S1x128 .f32) (x3 : Vec Ideal S128x128 .f32) (x4 x5 x6 : Vec Ideal S1x128 .f32) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 = k0_pay1 (k0_pay6 x0 x1 x2 x3 x4) x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

theorem out_A_8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec Ideal S10000x128 .f32) (x1 : Vec Ideal S128x128 .f32) (x2 : Vec Ideal S1x128 .f32) (x3 : Vec Ideal S128x128 .f32) (x4 x5 x6 : Vec Ideal S1x128 .f32) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 = k0_pay2 (k0_pay6 x0 x1 x2 x3 x4) x5 x6 (k0_pay4 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

theorem out_A_9 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec Ideal S10000x128 .f32) (x1 : Vec Ideal S128x128 .f32) (x2 : Vec Ideal S1x128 .f32) (x3 : Vec Ideal S128x128 .f32) (x4 x5 x6 : Vec Ideal S1x128 .f32) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6 = k0_pay3 (k0_pay6 x0 x1 x2 x3 x4) x5 x6 (k0_pay5 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

theorem out_B_7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec Ideal S10000x128 .f32) (x1 : Vec Ideal S128x128 .f32) (x2 : Vec Ideal S1x128 .f32) (x3 : Vec Ideal S128x128 .f32) (x4 x5 x6 : Vec Ideal S1x128 .f32) (xo8 xo9 : Vec Ideal S1x128 .f32) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xo8 xo9 = k0_pay1 (k0_pay6 x0 x1 x2 x3 x4) x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

theorem out_B_8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec Ideal S10000x128 .f32) (x1 : Vec Ideal S128x128 .f32) (x2 : Vec Ideal S1x128 .f32) (x3 : Vec Ideal S128x128 .f32) (x4 x5 x6 : Vec Ideal S1x128 .f32) (xo8 xo9 : Vec Ideal S1x128 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 xo8 xo9 = k0_pay2 (k0_pay6 x0 x1 x2 x3 x4) x5 x6 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

theorem out_B_9 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec Ideal S10000x128 .f32) (x1 : Vec Ideal S128x128 .f32) (x2 : Vec Ideal S1x128 .f32) (x3 : Vec Ideal S128x128 .f32) (x4 x5 x6 : Vec Ideal S1x128 .f32) (xo8 xo9 : Vec Ideal S1x128 .f32) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 xo8 xo9 = k0_pay3 (k0_pay6 x0 x1 x2 x3 x4) x5 x6 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, harg10.read_unread, View.ld_unit_zero (S := S10000x128) hz,
    View.ld_unit_zero (S := S128x128) hz, View.ld_unit_zero (S := S1x128) hz]

/-! ## The buffers after every point -/

variable (V : (c : Dev nD) → (b : Ref sig .tc) → Buf (Elt Ideal) ((c : Thread nD τ).loc b))

/-- The block of y computed at point t. -/
def yBlk (c : Dev nD) (t : Fin cfg0.N) : FVec Ideal S10000x128 .f32 :=
  k0_pay1 (F := Ideal) (k0_pay6 (iblk0 V c 0 t) (iblk0 V c 1 t) (iblk0 V c 2 t) (iblk0 V c 3 t) (iblk0 V c 4 t)) (iblk0 V c 5 t) (iblk0 V c 6 t)

/-- The first accumulator after point n: reset then one block's column sums added per point. -/
def acc8 (c : Dev nD) : (n : ℕ) → n < cfg0.N → Vec Ideal S1x128 .f32
  | 0, h => k0_pay2 (F := Ideal) (k0_pay6 (iblk0 V c 0 ⟨0, h⟩) (iblk0 V c 1 ⟨0, h⟩) (iblk0 V c 2 ⟨0, h⟩) (iblk0 V c 3 ⟨0, h⟩) (iblk0 V c 4 ⟨0, h⟩)) (iblk0 V c 5 ⟨0, h⟩) (iblk0 V c 6 ⟨0, h⟩) (k0_pay4 (F := Ideal))
  | n + 1, h => k0_pay2 (F := Ideal) (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)) (iblk0 V c 5 ⟨n + 1, h⟩) (iblk0 V c 6 ⟨n + 1, h⟩)
      (acc8 c n (Nat.lt_of_succ_lt h))

/-- The second accumulator after point n. -/
def acc9 (c : Dev nD) : (n : ℕ) → n < cfg0.N → Vec Ideal S1x128 .f32
  | 0, h => k0_pay3 (F := Ideal) (k0_pay6 (iblk0 V c 0 ⟨0, h⟩) (iblk0 V c 1 ⟨0, h⟩) (iblk0 V c 2 ⟨0, h⟩) (iblk0 V c 3 ⟨0, h⟩) (iblk0 V c 4 ⟨0, h⟩)) (iblk0 V c 5 ⟨0, h⟩) (iblk0 V c 6 ⟨0, h⟩) (k0_pay5 (F := Ideal))
  | n + 1, h => k0_pay3 (F := Ideal) (k0_pay6 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)) (iblk0 V c 5 ⟨n + 1, h⟩) (iblk0 V c 6 ⟨n + 1, h⟩)
      (acc9 c n (Nat.lt_of_succ_lt h))

/-- What the three buffers hold after point n, by induction on the point. -/
theorem outsAt_eq (c : Dev nD) : ∀ (n : ℕ) (h : n < cfg0.N),
    outsAt0 (F := Ideal) V c n h = (yBlk V c ⟨n, h⟩, acc8 V c n h, acc9 V c n h)
  | 0, h => by
    rw [outsAt0_A V c ⟨0, h⟩ rfl, out_A_7, out_A_8, out_A_9]
    rfl
  | n + 1, h => by
    have hN : cfg0.N = 5 := N_0
    have hB : ¬(⟨n + 1, h⟩ : Fin cfg0.N).val % 5 = 0 := by dsimp only; omega
    rw [outsAt0_B V c ⟨n + 1, h⟩ hB, out_B_7, out_B_8, out_B_9]
    show (_, k0_pay2 (F := Ideal) _ _ _ (outsAt0 (F := Ideal) V c n _).2.1, k0_pay3 (F := Ideal) _ _ _ (outsAt0 (F := Ideal) V c n _).2.2) = _
    rw [outsAt_eq c n]
    rfl

/-! ## The blocks the body loads, read at an entry -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row p of block t is row 10000·t + p of the array. -/
def row (t : Fin cfg0.N) (p : Fin 10000) : Fin 50000 :=
  ⟨10000 * t.val + p.val, by have h : t.val < 5 := lt_of_lt_of_eq t.isLt (show cfg0.N = 5 from N_0); omega⟩

theorem read_agg (c : Dev nD) (t : Fin cfg0.N) (p : Fin 10000) (k : Fin 128) :
    (iblk0 V c 0 t : S10000x128.Idx → EReal) (ix2 p k) = (V c main_v14 : S50000x128.Idx → EReal) (ix2 (row t p) k) := by
  obtain ⟨f00, f01, -⟩ := idx_facts t
  show V c main_v14 (((cfg0.win 0).blk t).view.emb (ix2 p k)) = V c main_v14 (ix2 (row t p) k)
  congr 1
  funext x; apply Fin.ext
  match x with
  | ⟨0, _⟩ => show win0_0.index t (0 : Fin 2) * 10000 + 1 * p.val = 10000 * t.val + p.val; omega
  | ⟨1, _⟩ => show win0_0.index t (1 : Fin 2) * 128 + 1 * k.val = k.val; omega

theorem read_w1 (c : Dev nD) (t : Fin cfg0.N) (a : Fin 128) (b : Fin 128) :
    (iblk0 V c 1 t : S128x128.Idx → EReal) (ix2 a b) = (V c main_arg2 : S128x128.Idx → EReal) (ix2 a b) := by
  obtain ⟨f00, f01, f10, f11, f20, f21, f30, f31, f40, f41, f50, f51, f60, f61, f70, f71, f80, f81, f90, f91⟩ := idx_facts t
  show V c main_arg2 (((cfg0.win 1).blk t).view.emb (ix2 a b)) = V c main_arg2 (ix2 a b)
  congr 1
  funext x; apply Fin.ext
  match x with
  | ⟨0, _⟩ => show win0_1.index t (0 : Fin 2) * 128 + 1 * a.val = a.val; omega
  | ⟨1, _⟩ => show win0_1.index t (1 : Fin 2) * 128 + 1 * b.val = b.val; omega

theorem read_b1 (c : Dev nD) (t : Fin cfg0.N) (a : Fin 1) (b : Fin 128) :
    (iblk0 V c 2 t : S1x128.Idx → EReal) (ix2 a b) = (V c main_v15 : S1x128.Idx → EReal) (ix2 a b) := by
  obtain ⟨f00, f01, f10, f11, f20, f21, f30, f31, f40, f41, f50, f51, f60, f61, f70, f71, f80, f81, f90, f91⟩ := idx_facts t
  show V c main_v15 (((cfg0.win 2).blk t).view.emb (ix2 a b)) = V c main_v15 (ix2 a b)
  congr 1
  funext x; apply Fin.ext
  match x with
  | ⟨0, _⟩ => show win0_2.index t (0 : Fin 2) * 1 + 1 * a.val = a.val; omega
  | ⟨1, _⟩ => show win0_2.index t (1 : Fin 2) * 128 + 1 * b.val = b.val; omega

theorem read_w2 (c : Dev nD) (t : Fin cfg0.N) (a : Fin 128) (b : Fin 128) :
    (iblk0 V c 3 t : S128x128.Idx → EReal) (ix2 a b) = (V c main_arg4 : S128x128.Idx → EReal) (ix2 a b) := by
  obtain ⟨f00, f01, f10, f11, f20, f21, f30, f31, f40, f41, f50, f51, f60, f61, f70, f71, f80, f81, f90, f91⟩ := idx_facts t
  show V c main_arg4 (((cfg0.win 3).blk t).view.emb (ix2 a b)) = V c main_arg4 (ix2 a b)
  congr 1
  funext x; apply Fin.ext
  match x with
  | ⟨0, _⟩ => show win0_3.index t (0 : Fin 2) * 128 + 1 * a.val = a.val; omega
  | ⟨1, _⟩ => show win0_3.index t (1 : Fin 2) * 128 + 1 * b.val = b.val; omega

theorem read_b2 (c : Dev nD) (t : Fin cfg0.N) (a : Fin 1) (b : Fin 128) :
    (iblk0 V c 4 t : S1x128.Idx → EReal) (ix2 a b) = (V c main_v16 : S1x128.Idx → EReal) (ix2 a b) := by
  obtain ⟨f00, f01, f10, f11, f20, f21, f30, f31, f40, f41, f50, f51, f60, f61, f70, f71, f80, f81, f90, f91⟩ := idx_facts t
  show V c main_v16 (((cfg0.win 4).blk t).view.emb (ix2 a b)) = V c main_v16 (ix2 a b)
  congr 1
  funext x; apply Fin.ext
  match x with
  | ⟨0, _⟩ => show win0_4.index t (0 : Fin 2) * 1 + 1 * a.val = a.val; omega
  | ⟨1, _⟩ => show win0_4.index t (1 : Fin 2) * 128 + 1 * b.val = b.val; omega

theorem read_g (c : Dev nD) (t : Fin cfg0.N) (a : Fin 1) (b : Fin 128) :
    (iblk0 V c 5 t : S1x128.Idx → EReal) (ix2 a b) = (V c main_v17 : S1x128.Idx → EReal) (ix2 a b) := by
  obtain ⟨f00, f01, f10, f11, f20, f21, f30, f31, f40, f41, f50, f51, f60, f61, f70, f71, f80, f81, f90, f91⟩ := idx_facts t
  show V c main_v17 (((cfg0.win 5).blk t).view.emb (ix2 a b)) = V c main_v17 (ix2 a b)
  congr 1
  funext x; apply Fin.ext
  match x with
  | ⟨0, _⟩ => show win0_5.index t (0 : Fin 2) * 1 + 1 * a.val = a.val; omega
  | ⟨1, _⟩ => show win0_5.index t (1 : Fin 2) * 128 + 1 * b.val = b.val; omega

theorem read_beta (c : Dev nD) (t : Fin cfg0.N) (a : Fin 1) (b : Fin 128) :
    (iblk0 V c 6 t : S1x128.Idx → EReal) (ix2 a b) = (V c main_v18 : S1x128.Idx → EReal) (ix2 a b) := by
  obtain ⟨f00, f01, f10, f11, f20, f21, f30, f31, f40, f41, f50, f51, f60, f61, f70, f71, f80, f81, f90, f91⟩ := idx_facts t
  show V c main_v18 (((cfg0.win 6).blk t).view.emb (ix2 a b)) = V c main_v18 (ix2 a b)
  congr 1
  funext x; apply Fin.ext
  match x with
  | ⟨0, _⟩ => show win0_6.index t (0 : Fin 2) * 1 + 1 * a.val = a.val; omega
  | ⟨1, _⟩ => show win0_6.index t (1 : Fin 2) * 128 + 1 * b.val = b.val; omega

/-! ## y over all rows, and the block of it a point computes -/

/-- y at (r, q), from the arrays the region finds: the aggregate, the two weight matrices, and the four [1,128] rows. -/
def Yg (c : Dev nD) : Fin 50000 → Fin 128 → EReal :=
  Spec.Yof (fun r k => (V c main_v14 : S50000x128.Idx → EReal) (ix2 r k))
    (fun a b => (V c main_arg2 : S128x128.Idx → EReal) (ix2 a b)) (fun j => (V c main_v15 : S1x128.Idx → EReal) (ix2 (0 : Fin 1) j))
    (fun a b => (V c main_arg4 : S128x128.Idx → EReal) (ix2 a b)) (fun j => (V c main_v16 : S1x128.Idx → EReal) (ix2 (0 : Fin 1) j))
    (fun j => (V c main_v17 : S1x128.Idx → EReal) (ix2 (0 : Fin 1) j)) (fun j => (V c main_v18 : S1x128.Idx → EReal) (ix2 (0 : Fin 1) j))

theorem yBlk_entry (c : Dev nD) (t : Fin cfg0.N) (p : Fin 10000) (q : Fin 128) :
    yBlk V c t (ix2 p q) = Yg V c (row t p) q := by
  unfold yBlk
  refine (y_entry _ _ _ _ _ _ _ p q).trans ?_
  have hA : (fun (p : Fin 10000) (k : Fin 128) => (iblk0 V c 0 t : S10000x128.Idx → EReal) (ix2 p k))
      = fun p k => (V c main_v14 : S50000x128.Idx → EReal) (ix2 (row t p) k) := funext fun p => funext fun k => read_agg V c t p k
  have hW1 : (fun (a b : Fin 128) => (iblk0 V c 1 t : S128x128.Idx → EReal) (ix2 a b))
      = fun a b => (V c main_arg2 : S128x128.Idx → EReal) (ix2 a b) := funext fun a => funext fun b => read_w1 V c t a b
  have hb1 : (fun (j : Fin 128) => (iblk0 V c 2 t : S1x128.Idx → EReal) (ix2 (0 : Fin 1) j))
      = fun j => (V c main_v15 : S1x128.Idx → EReal) (ix2 (0 : Fin 1) j) := funext fun j => read_b1 V c t 0 j
  have hW2 : (fun (a b : Fin 128) => (iblk0 V c 3 t : S128x128.Idx → EReal) (ix2 a b))
      = fun a b => (V c main_arg4 : S128x128.Idx → EReal) (ix2 a b) := funext fun a => funext fun b => read_w2 V c t a b
  have hb2 : (fun (j : Fin 128) => (iblk0 V c 4 t : S1x128.Idx → EReal) (ix2 (0 : Fin 1) j))
      = fun j => (V c main_v16 : S1x128.Idx → EReal) (ix2 (0 : Fin 1) j) := funext fun j => read_b2 V c t 0 j
  have hg : (fun (j : Fin 128) => (iblk0 V c 5 t : S1x128.Idx → EReal) (ix2 (0 : Fin 1) j))
      = fun j => (V c main_v17 : S1x128.Idx → EReal) (ix2 (0 : Fin 1) j) := funext fun j => read_g V c t 0 j
  have hβ : (fun (j : Fin 128) => (iblk0 V c 6 t : S1x128.Idx → EReal) (ix2 (0 : Fin 1) j))
      = fun j => (V c main_v18 : S1x128.Idx → EReal) (ix2 (0 : Fin 1) j) := funext fun j => read_beta V c t 0 j
  rw [hA, hW1, hb1, hW2, hb2, hg, hβ]
  rfl

/-! ## The three arrays after the run -/

/-- y as an array over all rows. -/
def G7 (c : Dev nD) : S50000x128.Idx → EReal := fun i => Yg V c ⟨(i 0).val, (i 0).isLt⟩ ⟨(i 1).val, (i 1).isLt⟩

/-- What point t writes back to the first output is block t of y. -/
theorem flushed7 (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7, outsAt_eq]
  funext j
  revert j
  show ∀ j : S10000x128.Idx, yBlk V c t j = G7 V c (((cfg0.win 7).blk t).view.emb j)
  intro j
  obtain ⟨p, q, rfl⟩ : ∃ (p : Fin 10000) (q : Fin 128), j = ix2 p q := ⟨j 0, j 1, eq_ix2 j⟩
  rw [yBlk_entry]
  obtain ⟨-, -, -, -, -, -, -, -, -, -, -, -, -, -, f70, f71, -⟩ := idx_facts t
  show Yg V c (row t p) q = Yg V c ⟨((((cfg0.win 7).blk t).view.emb (ix2 p q)) 0).val, _⟩ ⟨((((cfg0.win 7).blk t).view.emb (ix2 p q)) 1).val, _⟩
  congr 1 <;> apply Fin.ext
  · show 10000 * t.val + p.val = win0_7.index t (0 : Fin 2) * 10000 + 1 * p.val; omega
  · show q.val = win0_7.index t (1 : Fin 2) * 128 + 1 * q.val; omega

theorem mem_blk7 (t : Fin cfg0.N) (i : S50000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v19_0).slice (win0_7.rect t)).set ↔ _
  rw [View.set_slice_whole, Rect.mem_set_unit]
  exact Iff.rfl

/-- Every row lies in the block of the point numbered by the row's quotient by 10000. -/
theorem cover7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_7 _, ?_⟩
  rw [mem_blk7]
  obtain ⟨-, -, -, -, -, -, -, -, -, -, -, -, -, -, f70, f71, -⟩ := idx_facts ⟨(i 0).val / 10000, by rw [hN]; omega⟩
  intro a
  match a with
  | ⟨0, _⟩ =>
    show win0_7.index _ (0 : Fin 2) * 10000 ≤ (i 0).val ∧ (i 0).val < win0_7.index _ (0 : Fin 2) * 10000 + 10000
    rw [f70]; dsimp only; omega
  | ⟨1, _⟩ =>
    show win0_7.index _ (1 : Fin 2) * 128 ≤ (i 1).val ∧ (i 1).val < win0_7.index _ (1 : Fin 2) * 128 + 128
    rw [f71]; omega

theorem final7 (c : Dev nD) : (dat0 (F := Ideal) V c).arrAt 7 cfg0.N = G7 V c :=
  (dat0 (F := Ideal) V c).arrAt_eq_of_cover 7 (G7 V c) (fun t _ => flushed7 V c t) cover7

/-- The first output array at an entry is y there. -/
theorem y_at (c : Dev nD) (p : Fin 50000) (q : Fin 128) :
    ((dat0 (F := Ideal) V c).arrAt 7 cfg0.N : S50000x128.Idx → EReal) (ix2 p q) = Yg V c p q := by
  rw [final7]; rfl

/-- The last grid point. -/
abbrev tLast : Fin cfg0.N := ⟨4, by rw [show cfg0.N = 5 from N_0]; decide⟩

/-- The accumulator as the last point leaves it. -/
def S8 (c : Dev nD) : S1x128.Idx → EReal := acc8 V c 4 (by rw [show cfg0.N = 5 from N_0]; decide)

/-- The one write-back of this accumulator, at the last point, writes it whole. -/
theorem flushed8 (c : Dev nD) (t : Fin cfg0.N) (hf : (cfg0.win 8).flush t = true) :
    (dat0 (F := Ideal) V c).flushed 8 t = ((cfg0.win 8).blk t).view.read (Elt Ideal) (S8 V c) := by
  have hN : cfg0.N = 5 := N_0
  have h4 : t.val = 4 := by have h := (flush0_8 t).mp hf; have h' := t.isLt; omega
  obtain rfl : t = tLast := Fin.ext h4
  show (cfg0.win 8).cut (grid0.coords tLast) ((dat0 (F := Ideal) V c).after 8 tLast) = _
  rw [after0_8, outsAt_eq]
  have hz' : (fun a => win0_8.index tLast a * main_v19_1.ty.shape.size a) = fun _ => 0 := funext fun a => by fin_cases a <;> decide +kernel
  exact (Memref.read_access_unit_zero (Elt Ideal) main_v19_1 hz' (fun a => by rw [congrFun hz' a]; simp) (S8 V c)).symm

/-- So the array ends holding it: the last point's block is the whole [1,128] array. -/
theorem final8 (c : Dev nD) : (dat0 (F := Ideal) V c).arrAt 8 cfg0.N = S8 V c :=
  (dat0 (F := Ideal) V c).arrAt_eq_of_cover 8 (S8 V c) (flushed8 V c) fun i =>
    ⟨tLast, (flush0_8 tLast).mpr rfl, by
      show i ∈ ((View.whole main_v19_1).slice (win0_8.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_8.index tLast 0 * win0_8.size 0 ≤ (i 0 : Nat) ∧ (i 0 : Nat) < win0_8.index tLast 0 * win0_8.size 0 + win0_8.xsize (grid0.coords tLast) 0
        rw [show win0_8.index tLast 0 * win0_8.size 0 = 0 from by decide +kernel, show win0_8.xsize (grid0.coords tLast) 0 = 1 from by decide +kernel]; omega
      | ⟨1, _⟩ =>
        show win0_8.index tLast 1 * win0_8.size 1 ≤ (i 1 : Nat) ∧ (i 1 : Nat) < win0_8.index tLast 1 * win0_8.size 1 + win0_8.xsize (grid0.coords tLast) 1
        rw [show win0_8.index tLast 1 * win0_8.size 1 = 0 from by decide +kernel, show win0_8.xsize (grid0.coords tLast) 1 = 128 from by decide +kernel]; omega⟩

/-- The accumulator as the last point leaves it. -/
def S9 (c : Dev nD) : S1x128.Idx → EReal := acc9 V c 4 (by rw [show cfg0.N = 5 from N_0]; decide)

/-- The one write-back of this accumulator, at the last point, writes it whole. -/
theorem flushed9 (c : Dev nD) (t : Fin cfg0.N) (hf : (cfg0.win 9).flush t = true) :
    (dat0 (F := Ideal) V c).flushed 9 t = ((cfg0.win 9).blk t).view.read (Elt Ideal) (S9 V c) := by
  have hN : cfg0.N = 5 := N_0
  have h4 : t.val = 4 := by have h := (flush0_9 t).mp hf; have h' := t.isLt; omega
  obtain rfl : t = tLast := Fin.ext h4
  show (cfg0.win 9).cut (grid0.coords tLast) ((dat0 (F := Ideal) V c).after 9 tLast) = _
  rw [after0_9, outsAt_eq]
  have hz' : (fun a => win0_9.index tLast a * main_v19_2.ty.shape.size a) = fun _ => 0 := funext fun a => by fin_cases a <;> decide +kernel
  exact (Memref.read_access_unit_zero (Elt Ideal) main_v19_2 hz' (fun a => by rw [congrFun hz' a]; simp) (S9 V c)).symm

/-- So the array ends holding it: the last point's block is the whole [1,128] array. -/
theorem final9 (c : Dev nD) : (dat0 (F := Ideal) V c).arrAt 9 cfg0.N = S9 V c :=
  (dat0 (F := Ideal) V c).arrAt_eq_of_cover 9 (S9 V c) (flushed9 V c) fun i =>
    ⟨tLast, (flush0_9 tLast).mpr rfl, by
      show i ∈ ((View.whole main_v19_2).slice (win0_9.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_9.index tLast 0 * win0_9.size 0 ≤ (i 0 : Nat) ∧ (i 0 : Nat) < win0_9.index tLast 0 * win0_9.size 0 + win0_9.xsize (grid0.coords tLast) 0
        rw [show win0_9.index tLast 0 * win0_9.size 0 = 0 from by decide +kernel, show win0_9.xsize (grid0.coords tLast) 0 = 1 from by decide +kernel]; omega
      | ⟨1, _⟩ =>
        show win0_9.index tLast 1 * win0_9.size 1 ≤ (i 1 : Nat) ∧ (i 1 : Nat) < win0_9.index tLast 1 * win0_9.size 1 + win0_9.xsize (grid0.coords tLast) 1
        rw [show win0_9.index tLast 1 * win0_9.size 1 = 0 from by decide +kernel, show win0_9.xsize (grid0.coords tLast) 1 = 128 from by decide +kernel]; omega⟩

/-! ## The accumulators are the column sums -/

/-- One block's column sum extends the sum over the rows below 10000·t to the rows below 10000·(t+1). -/
theorem block_sum (c : Dev nD) (g : Fin 50000 → EReal) (t : Fin cfg0.N) (f : Fin 10000 → EReal)
    (hf : ∀ p, f p = g (row t p)) :
    segSum g (10000 * (t.val + 1)) = segSum g (10000 * t.val) + ∑ p : Fin 10000, f p := by
  have ht : t.val < 5 := lt_of_lt_of_eq t.isLt (show cfg0.N = 5 from N_0)
  rw [show 10000 * (t.val + 1) = 10000 * t.val + 10000 from by ring, segSum_add g (10000 * t.val) 10000 (by omega)]
  congr 1
  exact Finset.sum_congr rfl fun p _ => (hf p).symm

theorem acc8_entry (c : Dev nD) (q : Fin 128) : ∀ (n : ℕ) (h : n < cfg0.N),
    acc8 V c n h (ix2 (0 : Fin 1) q) = Spec.zero + segSum (fun r => Yg V c r q) (10000 * (n + 1))
  | 0, h => by
    show k0_pay2 (F := Ideal) _ _ _ (k0_pay4 (F := Ideal)) (ix2 (0 : Fin 1) q) = _
    rw [sum_entry]
    have hb := block_sum c (fun r => Yg V c r q) ⟨0, h⟩ (fun p => yBlk V c ⟨0, h⟩ (ix2 p q)) (fun p => yBlk_entry V c ⟨0, h⟩ p q)
    rw [show segSum (fun r => Yg V c r q) (10000 * (0 + 1)) = _ from hb,
      show (10000 * ((⟨0, h⟩ : Fin cfg0.N)).val) = 0 from rfl, segSum_zero, zero_add]
    rfl
  | n + 1, h => by
    show k0_pay2 (F := Ideal) _ _ _ (acc8 V c n _) (ix2 (0 : Fin 1) q) = _
    rw [sum_entry, acc8_entry c q n]
    have hb := block_sum c (fun r => Yg V c r q) ⟨n + 1, h⟩ (fun p => yBlk V c ⟨n + 1, h⟩ (ix2 p q)) (fun p => yBlk_entry V c ⟨n + 1, h⟩ p q)
    rw [show segSum (fun r => Yg V c r q) (10000 * (n + 1 + 1)) = _ from hb, add_assoc]
    rfl

theorem acc9_entry (c : Dev nD) (q : Fin 128) : ∀ (n : ℕ) (h : n < cfg0.N),
    acc9 V c n h (ix2 (0 : Fin 1) q) = Spec.zero + segSum (fun r => Yg V c r q * Yg V c r q) (10000 * (n + 1))
  | 0, h => by
    show k0_pay3 (F := Ideal) _ _ _ (k0_pay5 (F := Ideal)) (ix2 (0 : Fin 1) q) = _
    rw [sumsq_entry]
    have hb := block_sum c (fun r => Yg V c r q * Yg V c r q) ⟨0, h⟩ (fun p => yBlk V c ⟨0, h⟩ (ix2 p q) * yBlk V c ⟨0, h⟩ (ix2 p q)) (fun p => by rw [yBlk_entry V c ⟨0, h⟩ p q])
    rw [show segSum (fun r => Yg V c r q * Yg V c r q) (10000 * (0 + 1)) = _ from hb,
      show (10000 * ((⟨0, h⟩ : Fin cfg0.N)).val) = 0 from rfl, segSum_zero, zero_add]
    rfl
  | n + 1, h => by
    show k0_pay3 (F := Ideal) _ _ _ (acc9 V c n _) (ix2 (0 : Fin 1) q) = _
    rw [sumsq_entry, acc9_entry c q n]
    have hb := block_sum c (fun r => Yg V c r q * Yg V c r q) ⟨n + 1, h⟩ (fun p => yBlk V c ⟨n + 1, h⟩ (ix2 p q) * yBlk V c ⟨n + 1, h⟩ (ix2 p q)) (fun p => by rw [yBlk_entry V c ⟨n + 1, h⟩ p q])
    rw [show segSum (fun r => Yg V c r q * Yg V c r q) (10000 * (n + 1 + 1)) = _ from hb, add_assoc]
    rfl

/-- The first accumulator array ends at zero plus the column sums of y over all rows. -/
theorem sum_at (c : Dev nD) (q : Fin 128) :
    ((dat0 (F := Ideal) V c).arrAt 8 cfg0.N : S1x128.Idx → EReal) (ix2 (0 : Fin 1) q) = Spec.zero + ∑ r : Fin 50000, Yg V c r q := by
  rw [final8]
  show acc8 V c 4 _ (ix2 (0 : Fin 1) q) = _
  rw [acc8_entry V c q 4, show 10000 * (4 + 1) = 50000 from rfl, segSum_all]

/-- The second accumulator array ends at zero plus the column sums of y² over all rows. -/
theorem sumsq_at (c : Dev nD) (q : Fin 128) :
    ((dat0 (F := Ideal) V c).arrAt 9 cfg0.N : S1x128.Idx → EReal) (ix2 (0 : Fin 1) q)
      = Spec.zero + ∑ r : Fin 50000, Yg V c r q * Yg V c r q := by
  rw [final9]
  show acc9 V c 4 _ (ix2 (0 : Fin 1) q) = _
  rw [acc9_entry V c q 4, show 10000 * (4 + 1) = 50000 from rfl, segSum_all]

end Cert.KernelIdeal.Region0

end
-- ==== Proof.Region1.lean ====
/-
  The second region's output array after its run, entry by entry.

  The region walks the 50000 rows in five blocks of 10000; at block t it reads rows 10000·t … 10000·t + 9999 of y and of
  the node features and the five whole [1,128] rows, and writes back the same rows of the result. Every entry of the
  result array is therefore written exactly once, by the block that holds its row, with the specification's finishing
  step of the entries at the same position and of the rows at its column.
-/
import proofs.«121748_j11862699671900_2_alg».proof.Proof.Gen.KernelIdeal.Frame
import proofs.«121748_j11862699671900_2_alg».proof.Proof.Payloads

set_option maxRecDepth 16384

noncomputable section

namespace Cert.KernelIdeal.Region1

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one store, at an entry of the block: the finishing step of the loaded blocks' entries. -/
theorem out_entry (x0 x1 : FVec Ideal S10000x128 .f32) (x2 x3 x4 x5 x6 : FVec Ideal S1x128 .f32) (p : Fin 10000) (q : Fin 128) :
    out1_7 (F := Ideal) x0 x1 x2 x3 x4 x5 x6 (ix2 p q)
      = Spec.finish (x0 (ix2 p q)) (x1 (ix2 p q)) (x4 (ix2 (0 : Fin 1) q)) (x2 (ix2 (0 : Fin 1) q)) (x3 (ix2 (0 : Fin 1) q))
          (x5 (ix2 (0 : Fin 1) q)) (x6 (ix2 (0 : Fin 1) q)) := by
  unfold out1_7
  rw [View.canon_unit_zero hz]
  simp only [View.ld_unit_zero (S := S10000x128) hz, View.ld_unit_zero (S := S1x128) hz]
  exact finish_entry _ _ _ _ _ _ _ p q

/-- The column of an index of the [50000,128] array, as an index of a [1,128] row. -/
def rowIdx (i : S50000x128.Idx) : S1x128.Idx := ix2 (0 : Fin 1) (⟨(i 1).val, (i 1).isLt⟩ : Fin 128)

/-- The result array as one function of the arrays the region finds. -/
def G (c : Dev nD) : S50000x128.Idx → EReal := fun i =>
  Spec.finish ((V c main_v19_0 : S50000x128.Idx → EReal) i) ((V c main_arg0 : S50000x128.Idx → EReal) i)
    ((V c main_v34 : S1x128.Idx → EReal) (rowIdx i)) ((V c main_v32 : S1x128.Idx → EReal) (rowIdx i))
    ((V c main_v33 : S1x128.Idx → EReal) (rowIdx i)) ((V c main_v35 : S1x128.Idx → EReal) (rowIdx i))
    ((V c main_v36 : S1x128.Idx → EReal) (rowIdx i))

/-- The printed index maps over the grid: the two blocked inputs move with the output, the rows stay at block 0. -/
theorem idx_facts : ∀ t : Fin cfg1.N, win1_0.index t (0 : Fin 2) = win1_7.index t (0 : Fin 2)
    ∧ win1_0.index t (1 : Fin 2) = 0 ∧ win1_7.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val :=
  (by decide +kernel : ∀ t : Fin grid1.N, _)

/-- What point t writes back is block t of G. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  funext j
  revert j
  show ∀ j : S10000x128.Idx, out1_7 (F := Ideal) (iblk1 V c 0 t) (iblk1 V c 1 t) (iblk1 V c 2 t) (iblk1 V c 3 t) (iblk1 V c 4 t)
      (iblk1 V c 5 t) (iblk1 V c 6 t) j = G V c (((cfg1.win 7).blk t).view.emb j)
  intro j
  obtain ⟨p, q, rfl⟩ : ∃ (p : Fin 10000) (q : Fin 128), j = ix2 p q := ⟨j 0, j 1, eq_ix2 j⟩
  obtain ⟨f00, f01, f71, f10, f11, f20, f21, f30, f31, f40, f41, f50, f51, f60, f61, f70⟩ := idx_facts t
  refine (out_entry _ _ _ _ _ _ _ p q).trans ?_
  have e0 : ((cfg1.win 0).blk t).view.emb (ix2 p q) = ((cfg1.win 7).blk t).view.emb (ix2 p q) := by
    funext a; apply Fin.ext
    match a with
    | ⟨0, _⟩ => show win1_0.index t (0 : Fin 2) * 10000 + 1 * p.val = win1_7.index t (0 : Fin 2) * 10000 + 1 * p.val; omega
    | ⟨1, _⟩ => show win1_0.index t (1 : Fin 2) * 128 + 1 * q.val = win1_7.index t (1 : Fin 2) * 128 + 1 * q.val; omega
  have e1 : ((cfg1.win 1).blk t).view.emb (ix2 p q) = ((cfg1.win 7).blk t).view.emb (ix2 p q) := by
    funext a; apply Fin.ext
    match a with
    | ⟨0, _⟩ => show win1_1.index t (0 : Fin 2) * 10000 + 1 * p.val = win1_7.index t (0 : Fin 2) * 10000 + 1 * p.val; omega
    | ⟨1, _⟩ => show win1_1.index t (1 : Fin 2) * 128 + 1 * q.val = win1_7.index t (1 : Fin 2) * 128 + 1 * q.val; omega
  have e2 : ((cfg1.win 2).blk t).view.emb (ix2 (0 : Fin 1) q) = rowIdx (((cfg1.win 7).blk t).view.emb (ix2 p q)) := by
    funext a; apply Fin.ext
    match a with
    | ⟨0, _⟩ => show win1_2.index t (0 : Fin 2) * 1 + 1 * 0 = 0; omega
    | ⟨1, _⟩ => show win1_2.index t (1 : Fin 2) * 128 + 1 * q.val = win1_7.index t (1 : Fin 2) * 128 + 1 * q.val; omega
  have e3 : ((cfg1.win 3).blk t).view.emb (ix2 (0 : Fin 1) q) = rowIdx (((cfg1.win 7).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 128 + 1 * q.val = win1_7.index t (1 : Fin 2) * 128 + 1 * q.val; omega
  have e4 : ((cfg1.win 4).blk t).view.emb (ix2 (0 : Fin 1) q) = rowIdx (((cfg1.win 7).blk t).view.emb (ix2 p q)) := by
    funext a; apply Fin.ext
    match a with
    | ⟨0, _⟩ => show win1_4.index t (0 : Fin 2) * 1 + 1 * 0 = 0; omega
    | ⟨1, _⟩ => show win1_4.index t (1 : Fin 2) * 128 + 1 * q.val = win1_7.index t (1 : Fin 2) * 128 + 1 * q.val; omega
  have e5 : ((cfg1.win 5).blk t).view.emb (ix2 (0 : Fin 1) q) = rowIdx (((cfg1.win 7).blk t).view.emb (ix2 p q)) := by
    funext a; apply Fin.ext
    match a with
    | ⟨0, _⟩ => show win1_5.index t (0 : Fin 2) * 1 + 1 * 0 = 0; omega
    | ⟨1, _⟩ => show win1_5.index t (1 : Fin 2) * 128 + 1 * q.val = win1_7.index t (1 : Fin 2) * 128 + 1 * q.val; omega
  have e6 : ((cfg1.win 6).blk t).view.emb (ix2 (0 : Fin 1) q) = rowIdx (((cfg1.win 7).blk t).view.emb (ix2 p q)) := by
    funext a; apply Fin.ext
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega
  show Spec.finish (V c main_v19_0 (((cfg1.win 0).blk t).view.emb (ix2 p q))) (V c main_arg0 (((cfg1.win 1).blk t).view.emb (ix2 p q)))
      (V c main_v34 (((cfg1.win 4).blk t).view.emb (ix2 (0 : Fin 1) q))) (V c main_v32 (((cfg1.win 2).blk t).view.emb (ix2 (0 : Fin 1) q)))
      (V c main_v33 (((cfg1.win 3).blk t).view.emb (ix2 (0 : Fin 1) q))) (V c main_v35 (((cfg1.win 5).blk t).view.emb (ix2 (0 : Fin 1) q)))
      (V c main_v36 (((cfg1.win 6).blk t).view.emb (ix2 (0 : Fin 1) q))) = G V c (((cfg1.win 7).blk t).view.emb (ix2 p q))
  rw [e0, e1, e2, e3, e4, e5, e6]
  rfl

/-- An index of the array is in point t's block iff each coordinate is in the block's range on its axis. -/
theorem mem_blk (t : Fin cfg1.N) (i : S50000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v37).slice (win1_7.rect t)).set ↔ _
  rw [View.set_slice_whole, Rect.mem_set_unit]
  exact Iff.rfl

/-- Every row lies in the block of the point numbered by the row's quotient by 10000. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_7 _, ?_⟩
  rw [mem_blk]
  obtain ⟨-, -, f71, -, -, -, -, -, -, -, -, -, -, -, -, f70⟩ := idx_facts ⟨(i 0).val / 10000, by rw [hN]; omega⟩
  intro a
  match a with
  | ⟨0, _⟩ =>
    show win1_7.index _ (0 : Fin 2) * 10000 ≤ (i 0).val ∧ (i 0).val < win1_7.index _ (0 : Fin 2) * 10000 + 10000
    rw [f70]; dsimp only; omega
  | ⟨1, _⟩ =>
    show win1_7.index _ (1 : Fin 2) * 128 ≤ (i 1).val ∧ (i 1).val < win1_7.index _ (1 : Fin 2) * 128 + 128
    rw [f71]; omega

/-- The result array after the region's run is G. -/
theorem final (c : Dev nD) : (dat1 (F := Ideal) V c).arrAt 7 cfg1.N = G V c :=
  (dat1 (F := Ideal) V c).arrAt_eq_of_cover 7 (G V c) (fun t _ => flushed_eq V c t) cover

/-- G at an entry. -/
theorem G_apply (c : Dev nD) (p : Fin 50000) (q : Fin 128) :
    G V c (ix2 p q) = Spec.finish ((V c main_v19_0 : S50000x128.Idx → EReal) (ix2 p q)) ((V c main_arg0 : S50000x128.Idx → EReal) (ix2 p q))
      ((V c main_v34 : S1x128.Idx → EReal) (ix2 (0 : Fin 1) q)) ((V c main_v32 : S1x128.Idx → EReal) (ix2 (0 : Fin 1) q))
      ((V c main_v33 : S1x128.Idx → EReal) (ix2 (0 : Fin 1) q)) ((V c main_v35 : S1x128.Idx → EReal) (ix2 (0 : Fin 1) q))
      ((V c main_v36 : S1x128.Idx → EReal) (ix2 (0 : Fin 1) q)) := rfl

end Cert.KernelIdeal.Region1

end
-- ==== Proof.HostGlue.lean ====
/-
  The buffers at the two regions' entries, read through the host operations.

  Between the launch and the first region the host forms the aggregate (a gather of node rows, plus the edge features,
  scattered by destination onto a zero array) and lays the four [128] parameter vectors of the first region out as [1,128]
  rows; the two weight matrices are not touched. Between the regions the host divides the two column sums S₈, S₉ the first
  region leaves by N (the mean M and the mean of squares), forms M²·a·(2 − a) and subtracts it from the mean of squares,
  and lays the mean, that variance and the three [128] parameter vectors of the second region out as [1,128] rows; the
  first region's normalised output and the node features are not touched.

  A buffer a stretch does not write is read from before the stretch; a buffer it writes is the written operation's
  function of its operands' contents; a [128] vector laid out as a [1,128] row reads at (0, j) the vector's entry j.
-/
import proofs.«121748_j11862699671900_2_alg».proof.Proof.Gen.KernelIdeal.Frame
import proofs.«121748_j11862699671900_2_alg».proof.Proof.Spec
import Idealize.ShloMosaic.Lib.StableHlo.Run
import Idealize.ShloMosaic.Lib.ValueLayout

set_option maxRecDepth 16384

noncomputable section

namespace Cert.KernelIdeal.HostGlue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## Arguments the first stretch does not write -/

/-- Argument 0 at region 0's entry is as launched: the first stretch does not write it. -/
theorem W1_arg0 (c : Dev nD) : W1 m ρ c (Proc.devRef .tc main_arg0) = m ((c : Thread nD τ).loc main_arg0) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg0) = W0 m ρ c (Proc.devRef .tc main_arg0))

/-- Argument 1 at region 0's entry is as launched: the first stretch does not write it. -/
theorem W1_arg1 (c : Dev nD) : W1 m ρ c (Proc.devRef .tc main_arg1) = m ((c : Thread nD τ).loc main_arg1) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg1) = W0 m ρ c (Proc.devRef .tc main_arg1))

/-- Argument 2 at region 0's entry is as launched: the first stretch does not write it. -/
theorem W1_arg2 (c : Dev nD) : W1 m ρ c (Proc.devRef .tc main_arg2) = m ((c : Thread nD τ).loc main_arg2) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg2) = W0 m ρ c (Proc.devRef .tc main_arg2))

/-- Argument 3 at region 0's entry is as launched: the first stretch does not write it. -/
theorem W1_arg3 (c : Dev nD) : W1 m ρ c (Proc.devRef .tc main_arg3) = m ((c : Thread nD τ).loc main_arg3) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg3) = W0 m ρ c (Proc.devRef .tc main_arg3))

/-- Argument 4 at region 0's entry is as launched: the first stretch does not write it. -/
theorem W1_arg4 (c : Dev nD) : W1 m ρ c (Proc.devRef .tc main_arg4) = m ((c : Thread nD τ).loc main_arg4) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg4) = W0 m ρ c (Proc.devRef .tc main_arg4))

/-- Argument 5 at region 0's entry is as launched: the first stretch does not write it. -/
theorem W1_arg5 (c : Dev nD) : W1 m ρ c (Proc.devRef .tc main_arg5) = m ((c : Thread nD τ).loc main_arg5) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg5) = W0 m ρ c (Proc.devRef .tc main_arg5))

/-- Argument 6 at region 0's entry is as launched: the first stretch does not write it. -/
theorem W1_arg6 (c : Dev nD) : W1 m ρ c (Proc.devRef .tc main_arg6) = m ((c : Thread nD τ).loc main_arg6) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg6) = W0 m ρ c (Proc.devRef .tc main_arg6))

/-- Argument 7 at region 0's entry is as launched: the first stretch does not write it. -/
theorem W1_arg7 (c : Dev nD) : W1 m ρ c (Proc.devRef .tc main_arg7) = m ((c : Thread nD τ).loc main_arg7) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg7) = W0 m ρ c (Proc.devRef .tc main_arg7))

/-- Argument 8 at region 0's entry is as launched: the first stretch does not write it. -/
theorem W1_arg8 (c : Dev nD) : W1 m ρ c (Proc.devRef .tc main_arg8) = m ((c : Thread nD τ).loc main_arg8) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg8) = W0 m ρ c (Proc.devRef .tc main_arg8))

/-- Argument 9 at region 0's entry is as launched: the first stretch does not write it. -/
theorem W1_arg9 (c : Dev nD) : W1 m ρ c (Proc.devRef .tc main_arg9) = m ((c : Thread nD τ).loc main_arg9) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg9) = W0 m ρ c (Proc.devRef .tc main_arg9))

/-- Argument 10 at region 0's entry is as launched: the first stretch does not write it. -/
theorem W1_arg10 (c : Dev nD) : W1 m ρ c (Proc.devRef .tc main_arg10) = m ((c : Thread nD τ).loc main_arg10) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W1 m ρ c (Proc.devRef .tc main_arg10) = W0 m ρ c (Proc.devRef .tc main_arg10))

/-! ## Arguments at the first region's exit -/

/-- Argument 0 at region 0's exit is as launched: it is no array of region 0. -/
theorem W2_arg0 (c : Dev nD) : W2 m ρ c (Proc.devRef .tc main_arg0) = m ((c : Thread nD τ).loc main_arg0) :=
  (W2_of_ne m ρ c main_arg0 (by decide)).trans (W1_arg0 m ρ c)

/-- Argument 8 at region 0's exit is as launched: it is no array of region 0. -/
theorem W2_arg8 (c : Dev nD) : W2 m ρ c (Proc.devRef .tc main_arg8) = m ((c : Thread nD τ).loc main_arg8) :=
  (W2_of_ne m ρ c main_arg8 (by decide)).trans (W1_arg8 m ρ c)

/-- Argument 9 at region 0's exit is as launched: it is no array of region 0. -/
theorem W2_arg9 (c : Dev nD) : W2 m ρ c (Proc.devRef .tc main_arg9) = m ((c : Thread nD τ).loc main_arg9) :=
  (W2_of_ne m ρ c main_arg9 (by decide)).trans (W1_arg9 m ρ c)

/-- Argument 10 at region 0's exit is as launched: it is no array of region 0. -/
theorem W2_arg10 (c : Dev nD) : W2 m ρ c (Proc.devRef .tc main_arg10) = m ((c : Thread nD τ).loc main_arg10) :=
  (W2_of_ne m ρ c main_arg10 (by decide)).trans (W1_arg10 m ρ c)

/-! ## The second region's entry -/

/-- The first region's three outputs at its exit are what its pipeline leaves. -/
theorem W2_y (c : Dev nD) : W2 m ρ c (Proc.devRef .tc main_v19_0) = (dat0 (F := Ideal) (V1 m ρ) c).arrAt 7 cfg0.N :=
  W2_arr m ρ c 7
theorem W2_s8 (c : Dev nD) : W2 m ρ c (Proc.devRef .tc main_v19_1) = (dat0 (F := Ideal) (V1 m ρ) c).arrAt 8 cfg0.N :=
  W2_arr m ρ c 8
theorem W2_s9 (c : Dev nD) : W2 m ρ c (Proc.devRef .tc main_v19_2) = (dat0 (F := Ideal) (V1 m ρ) c).arrAt 9 cfg0.N :=
  W2_arr m ρ c 9

theorem mid_y (c : Dev nD) :
    (V3 m ρ c main_v19_0 : S50000x128.Idx → EReal) = (dat0 (F := Ideal) (V1 m ρ) c).arrAt 7 cfg0.N :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W3 m ρ c (Proc.devRef .tc main_v19_0) = W2 m ρ c (Proc.devRef .tc main_v19_0))).trans (W2_y m ρ c)

theorem mid_x (c : Dev nD) : (V3 m ρ c main_arg0 : S50000x128.Idx → EReal) = m ((c : Thread nD τ).loc main_arg0) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))) : W3 m ρ c (Proc.devRef .tc main_arg0) = W2 m ρ c (Proc.devRef .tc main_arg0))).trans (W2_arg0 m ρ c)

/-- The mean's scale a, laid out as a row, reads the argument's entry. -/
theorem mid_a (c : Dev nD) (q : Fin 128) :
    (V3 m ρ c main_v34 : S1x128.Idx → EReal) (ix2 (0 : Fin 1) q)
      = (m ((c : Thread nD τ).loc main_arg10) : S128.Idx → EReal) (ix1 q) := by
  have e : (V3 m ρ c main_v34 : S1x128.Idx → EReal)
      = shapeCast S1x128 (W2 m ρ c (Proc.devRef .tc main_arg10) : S128.Idx → EReal) shapeCasts_S128_S1x128 := by
    dsimp only [V3, W3, hostOps1]; after_results; rfl
  rw [e, shapeCast_a_1a_apply, W2_arg10]

/-- The column scale w, laid out as a row, reads the argument's entry. -/
theorem mid_w (c : Dev nD) (q : Fin 128) :
    (V3 m ρ c main_v35 : S1x128.Idx → EReal) (ix2 (0 : Fin 1) q)
      = (m ((c : Thread nD τ).loc main_arg8) : S128.Idx → EReal) (ix1 q) := by
  have e : (V3 m ρ c main_v35 : S1x128.Idx → EReal)
      = shapeCast S1x128 (W2 m ρ c (Proc.devRef .tc main_arg8) : S128.Idx → EReal) shapeCasts_S128_S1x128 := by
    dsimp only [V3, W3, hostOps1]; after_results; rfl
  rw [e, shapeCast_a_1a_apply, W2_arg8]

/-- The column offset c, laid out as a row, reads the argument's entry. -/
theorem mid_c (c : Dev nD) (q : Fin 128) :
    (V3 m ρ c main_v36 : S1x128.Idx → EReal) (ix2 (0 : Fin 1) q)
      = (m ((c : Thread nD τ).loc main_arg9) : S128.Idx → EReal) (ix1 q) := by
  have e : (V3 m ρ c main_v36 : S1x128.Idx → EReal)
      = shapeCast S1x128 (W2 m ρ c (Proc.devRef .tc main_arg9) : S128.Idx → EReal) shapeCasts_S128_S1x128 := by
    dsimp only [V3, W3, hostOps1]; after_results; rfl
  rw [e, shapeCast_a_1a_apply, W2_arg9]

/-- The column means as the host forms them: the first column sum over N. -/
def meanVec (c : Dev nD) : FVec Ideal S128 .f32 :=
  Host.divf (F := Ideal)
    (shapeCast S128 (W2 m ρ c (Proc.devRef .tc main_v19_1) : S1x128.Idx → EReal) shapeCasts_S1x128_S128)
    (broadcastInDim S128 ![] bcast_S_S128 (constant (F := Ideal) S_ .f32 0x47435000#32))

/-- The column means of squares as the host forms them: the second column sum over N. -/
def meanSqVec (c : Dev nD) : FVec Ideal S128 .f32 :=
  Host.divf (F := Ideal)
    (shapeCast S128 (W2 m ρ c (Proc.devRef .tc main_v19_2) : S1x128.Idx → EReal) shapeCasts_S1x128_S128)
    (broadcastInDim S128 ![] bcast_S_S128 (constant (F := Ideal) S_ .f32 0x47435000#32))

/-- The column variances as the host forms them: the mean of squares less M·M·a·(2 − a). -/
def varVec (c : Dev nD) : FVec Ideal S128 .f32 :=
  subf (meanSqVec m ρ c)
    (mulf (mulf (mulf (meanVec m ρ c) (meanVec m ρ c)) (W2 m ρ c (Proc.devRef .tc main_arg10) : S128.Idx → EReal))
      (subf (broadcastInDim S128 ![] bcast_S_S128 (constant (F := Ideal) S_ .f32 0x40000000#32))
        (W2 m ρ c (Proc.devRef .tc main_arg10) : S128.Idx → EReal)))

theorem meanVec_at (c : Dev nD) (q : Fin 128) :
    meanVec m ρ c (ix1 q)
      = Ideal.div (((dat0 (F := Ideal) (V1 m ρ) c).arrAt 8 cfg0.N : S1x128.Idx → EReal) (ix2 (0 : Fin 1) q)) Spec.cN := by
  unfold meanVec
  rw [Cert.LayerNorm.hostDivf_at, shapeCast_1a_a_apply, Cert.LayerNorm.scalarSpread_apply, W2_s8]

theorem meanSqVec_at (c : Dev nD) (q : Fin 128) :
    meanSqVec m ρ c (ix1 q)
      = Ideal.div (((dat0 (F := Ideal) (V1 m ρ) c).arrAt 9 cfg0.N : S1x128.Idx → EReal) (ix2 (0 : Fin 1) q)) Spec.cN := by
  unfold meanSqVec
  rw [Cert.LayerNorm.hostDivf_at, shapeCast_1a_a_apply, Cert.LayerNorm.scalarSpread_apply, W2_s9]

theorem mid_mu (c : Dev nD) (q : Fin 128) :
    (V3 m ρ c main_v32 : S1x128.Idx → EReal) (ix2 (0 : Fin 1) q)
      = Ideal.div (((dat0 (F := Ideal) (V1 m ρ) c).arrAt 8 cfg0.N : S1x128.Idx → EReal) (ix2 (0 : Fin 1) q)) Spec.cN := by
  have e : (V3 m ρ c main_v32 : S1x128.Idx → EReal) = shapeCast S1x128 (meanVec m ρ c) shapeCasts_S128_S1x128 := by
    dsimp only [V3, W3, hostOps1]; after_results; rfl
  rw [e, shapeCast_a_1a_apply, meanVec_at]

set_option maxHeartbeats 1000000 in
theorem mid_var (c : Dev nD) (q : Fin 128) :
    (V3 m ρ c main_v33 : S1x128.Idx → EReal) (ix2 (0 : Fin 1) q)
      = Ideal.div (((dat0 (F := Ideal) (V1 m ρ) c).arrAt 9 cfg0.N : S1x128.Idx → EReal) (ix2 (0 : Fin 1) q)) Spec.cN
        - Ideal.div (((dat0 (F := Ideal) (V1 m ρ) c).arrAt 8 cfg0.N : S1x128.Idx → EReal) (ix2 (0 : Fin 1) q)) Spec.cN
          * Ideal.div (((dat0 (F := Ideal) (V1 m ρ) c).arrAt 8 cfg0.N : S1x128.Idx → EReal) (ix2 (0 : Fin 1) q)) Spec.cN
          * (m ((c : Thread nD τ).loc main_arg10) : S128.Idx → EReal) (ix1 q)
          * (Spec.two - (m ((c : Thread nD τ).loc main_arg10) : S128.Idx → EReal) (ix1 q)) := by
  have e : (V3 m ρ c main_v33 : S1x128.Idx → EReal) = shapeCast S1x128 (varVec m ρ c) shapeCasts_S128_S1x128 := by
    dsimp only [V3, W3, hostOps1]; after_results_simp; rfl
  rw [e, shapeCast_a_1a_apply]
  unfold varVec
  rw [subf_apply, mulf_apply, mulf_apply, mulf_apply, subf_apply, meanSqVec_at, meanVec_at,
    Cert.LayerNorm.scalarSpread_apply, W2_arg10]

/-! ## The first region's entry -/

theorem pre_w1 (c : Dev nD) : (V1 m ρ c main_arg2 : S128x128.Idx → EReal) = m ((c : Thread nD τ).loc main_arg2) :=
  W1_arg2 m ρ c

theorem pre_w2 (c : Dev nD) : (V1 m ρ c main_arg4 : S128x128.Idx → EReal) = m ((c : Thread nD τ).loc main_arg4) :=
  W1_arg4 m ρ c

/-- The first bias, laid out as a row, reads the argument's entry. -/
theorem pre_b1 (c : Dev nD) (j : Fin 128) :
    (V1 m ρ c main_v15 : S1x128.Idx → EReal) (ix2 (0 : Fin 1) j)
      = (m ((c : Thread nD τ).loc main_arg3) : S128.Idx → EReal) (ix1 j) := by
  have e : (V1 m ρ c main_v15 : S1x128.Idx → EReal)
      = shapeCast S1x128 (m ((c : Thread nD τ).loc main_arg3) : S128.Idx → EReal) shapeCasts_S128_S1x128 := by
    dsimp only [V1, W1, hostOps0]; after_results; rfl
  rw [e, shapeCast_a_1a_apply]

/-- The second bias, laid out as a row, reads the argument's entry. -/
theorem pre_b2 (c : Dev nD) (j : Fin 128) :
    (V1 m ρ c main_v16 : S1x128.Idx → EReal) (ix2 (0 : Fin 1) j)
      = (m ((c : Thread nD τ).loc main_arg5) : S128.Idx → EReal) (ix1 j) := by
  have e : (V1 m ρ c main_v16 : S1x128.Idx → EReal)
      = shapeCast S1x128 (m ((c : Thread nD τ).loc main_arg5) : S128.Idx → EReal) shapeCasts_S128_S1x128 := by
    dsimp only [V1, W1, hostOps0]; after_results; rfl
  rw [e, shapeCast_a_1a_apply]

/-- The row normalisation's scale, laid out as a row, reads the argument's entry. -/
theorem pre_g (c : Dev nD) (j : Fin 128) :
    (V1 m ρ c main_v17 : S1x128.Idx → EReal) (ix2 (0 : Fin 1) j)
      = (m ((c : Thread nD τ).loc main_arg6) : S128.Idx → EReal) (ix1 j) := by
  have e : (V1 m ρ c main_v17 : S1x128.Idx → EReal)
      = shapeCast S1x128 (m ((c : Thread nD τ).loc main_arg6) : S128.Idx → EReal) shapeCasts_S128_S1x128 := by
    dsimp only [V1, W1, hostOps0]; after_results; rfl
  rw [e, shapeCast_a_1a_apply]

/-- The row normalisation's offset, laid out as a row, reads the argument's entry. -/
theorem pre_beta (c : Dev nD) (j : Fin 128) :
    (V1 m ρ c main_v18 : S1x128.Idx → EReal) (ix2 (0 : Fin 1) j)
      = (m ((c : Thread nD τ).loc main_arg7) : S128.Idx → EReal) (ix1 j) := by
  have e : (V1 m ρ c main_v18 : S1x128.Idx → EReal)
      = shapeCast S1x128 (m ((c : Thread nD τ).loc main_arg7) : S128.Idx → EReal) shapeCasts_S128_S1x128 := by
    dsimp only [V1, W1, hostOps0]; after_results; rfl
  rw [e, shapeCast_a_1a_apply]

set_option maxHeartbeats 1000000 in
/-- The aggregate at the first region's entry: the gathered node rows plus the edge features, scattered by destination
    onto the zero array; the two index arrays are what the host computes from the edge list. -/
theorem pre_agg (c : Dev nD) : ∃ (iS iD : IVec S600000x1 32),
    (V1 m ρ c main_v14 : S50000x128.Idx → EReal)
      = Host.scatterAdd (F := Ideal) scatter_S50000x128_S600000x1_S600000x128_1_0_0_1
          (broadcastInDim S50000x128 ![] bcast_S_S50000x128 (constant (F := Ideal) S_ .f32 0x00000000#32)) iD
          (addf (Host.gather gather_S50000x128_S600000x1_S600000x128_1_0_n_n_0_1_1128
            (m ((c : Thread nD τ).loc main_arg0)) iS) (m ((c : Thread nD τ).loc main_arg1))) :=
  ⟨_, _, by dsimp only [V1, W1, hostOps0]; after_results_simp; rfl⟩

end Cert.KernelIdeal.HostGlue

end
-- ==== Proof.LibGatherRows2.lean ====
/-
  A general lemma: `stablehlo.gather` of whole ROWS of a matrix at a column of start indices, read at an index.

  What `x[idx]` of a matrix `x : [N, C]` at an integer vector `idx : [R]` lowers to: a gather whose result
  `[R, C]` has one offset axis (the features), the operand's row axis collapsed, start index map `[0]`, slice
  sizes `[1, C]` and the index vector on axis 1 of the start indices laid out as `[R, 1]`.  Result element
  `(t, f)` is `x` at row `idx[t, 0]` — read as a signed integer and clamped into `[0, N − 1]` — and feature `f`.
  It is the matrix twin of the flat gather read at an index, and is proved the same way.
-/
import Idealize.ShloMosaic.Lib.ValueIdx

noncomputable section

namespace Idealize.ShloMosaic.GatherRows2

open Idealize.ShloMosaic Idealize.ShloMosaic.ValueIdx

variable {α : Type}

/-- The dimension numbers of `x[idx]` for an operand `[N, C]`, start indices `[R, 1]` and result `[R, C]`. -/
abbrev matDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, f)`: the operand at row `idx[t, 0]`, read signed and clamped into
    `[0, N − 1]`, and feature `f`. -/
theorem gather_mat_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (f : Fin C) :
    Host.gather (matDims N R C wf) x idx (ix2 t f)
      = x (ix2 ⟨min (idx (ix2 t (0 : Fin 1))).toInt.toNat (N - 1), by omega⟩ f) := by
  unfold Host.gather
  congr 1
  funext a
  refine Fin.ext ?_
  match a with
  | ⟨0, _⟩ =>
    show (matDims N R C wf).start (ix2 t f) idx 0 + (matDims N R C wf).batchCoord (ix2 t f) 0
      + (matDims N R C wf).offCoord (ix2 t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N R C wf).startIndexMap from List.mem_singleton.mpr rfl)]
    have hsi : (matDims N R C wf).siIdx (ix2 t f) ⟨List.idxOf (0 : Fin 2) (matDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (matDims N R C wf).start (ix2 t f) idx 1 + (matDims N R C wf).batchCoord (ix2 t f) 1
      + (matDims N R C wf).offCoord (ix2 t f) 1 = f.val
    rw [GatherDims.batchCoord_eq_zero _ _ _ List.not_mem_nil]
    have hs : (matDims N R C wf).start (ix2 t f) idx 1 = 0 := by
      unfold GatherDims.start
      rw [dif_neg (by simp)]
    have ho : (matDims N R C wf).offCoord (ix2 t f) 1 = f.val := by
      unfold GatherDims.offCoord
      rw [dif_pos ((GatherDims.mem_sKept _ _).mpr ⟨by simp, List.not_mem_nil⟩)]
      rfl
    rw [hs, ho]
    simp

end Idealize.ShloMosaic.GatherRows2

end
-- ==== Proof.LibScatterRows.lean ====
/-
  A general lemma: the host's accumulating float `stablehlo.scatter` of ROWS, read at an index as a sum.

  What `jax.ops.segment_sum(upd, idx, N)` lowers to: a scatter with an `add` body whose scatter indices are the
  integer vector `idx : [R]` laid out as a column `[R, 1]` (index vector on axis 1), the operand's leading axis
  inserted, scatter-dims-to-operand-dims `[0]`.  Update row `k` lands on operand row `p` exactly when the
  index word `idx[k, 0]`, read as a SIGNED integer and not clamped, is `p`; a row whose word names no operand
  row is dropped.  So at the extended reals the result at row `p` is the operand there plus the sum of the update
  rows that land on `p`: for a flat update `[R]` into `[N]`, and for rows of `C` features `[R, C]` into
  `[N, C]`, feature by feature.
-/
import Idealize.ShloMosaic.PureOps.Ideal
import Idealize.ShloMosaic.Lib.ValueIdx

noncomputable section

namespace Idealize.ShloMosaic.ScatterRows

open Idealize.ShloMosaic Idealize.ShloMosaic.ValueIdx

/-! ## A flat update `[R]` into `[N]` -/

/-- The dimension numbers of a segment sum of a flat `[R]` update into `[N]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section flat
variable {N R w : Nat} (wf : ScatterDims.WF ⟨1, ![N]⟩ ⟨2, ![R, 1]⟩ ⟨1, ![R]⟩ [] [0] [0] 1)
  (idx : IVec ⟨2, ![R, 1]⟩ w)

/-- On the operand's one axis the landing coordinate of update `k` is its index word read signed. -/
theorem flat_coord (k : Fin R) (a : Fin 1) :
    (flatDims N R wf).start (ix1 k) idx a + ((flatDims N R wf).window (ix1 k) a : Int)
      = (idx (ix2 k (0 : Fin 1))).toInt := by
  obtain rfl : a = 0 := Subsingleton.elim _ _
  have hw : (flatDims N R wf).window (ix1 k) 0 = 0 := by
    unfold ScatterDims.window
    rw [dif_neg (by simp [ScatterDims.sKept, Shape.kept])]
  rw [hw]
  unfold ScatterDims.start
  rw [dif_pos (show (0 : Fin 1) ∈ (flatDims N R wf).scatterDimsToOperandDims from List.mem_singleton.mpr rfl)]
  have hsi : (flatDims N R wf).siIdx (ix1 k) ⟨List.idxOf (0 : Fin 1) (flatDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- Update `k` lands on operand row `p` exactly when its index word, read signed, is `p`. -/
theorem flat_lands_iff (k : Fin R) (p : Fin N) :
    (flatDims N R wf).resultIdx? (ix1 k) idx = some (ix1 p) ↔ (idx (ix2 k (0 : Fin 1))).toInt = (p.val : Int) := by
  unfold ScatterDims.resultIdx?
  constructor
  · intro h
    split at h
    · have h0 := congrFun (Option.some.inj h) (0 : Fin 1)
      have h1 : ((flatDims N R wf).start (ix1 k) idx 0 + ((flatDims N R wf).window (ix1 k) 0 : Int)).toNat = p.val :=
        congrArg Fin.val h0
      rename_i hall
      have h2 := (hall 0).1
      rw [flat_coord] at h1 h2
      omega
    · cases h
  · intro hv
    have hall : ∀ a : Fin 1, 0 ≤ (flatDims N R wf).start (ix1 k) idx a + ((flatDims N R wf).window (ix1 k) a : Int)
        ∧ (flatDims N R wf).start (ix1 k) idx a + ((flatDims N R wf).window (ix1 k) a : Int)
          < ((⟨1, ![N]⟩ : Shape).size a : Int) := by
      intro a
      rw [flat_coord, hv]
      obtain rfl : a = 0 := Subsingleton.elim _ _
      have : (⟨1, ![N]⟩ : Shape).size 0 = N := rfl
      rw [this]
      have := p.isLt
      omega
    rw [dif_pos hall]
    congr 1
    funext a
    obtain rfl : a = 0 := Subsingleton.elim _ _
    refine Fin.ext ?_
    show ((flatDims N R wf).start (ix1 k) idx 0 + ((flatDims N R wf).window (ix1 k) 0 : Int)).toNat = p.val
    rw [flat_coord, hv]
    simp

/-- THE FLAT SCATTER-ADD READ AT ROW `p`: the operand there plus the sum of the updates landing on `p`. -/
theorem scatterAdd_flat_apply (x : (⟨1, ![N]⟩ : Shape).Idx → EReal) (upd : (⟨1, ![R]⟩ : Shape).Idx → EReal)
    (p : Fin N) :
    Ideal.hostScatterAdd (flatDims N R wf) x idx upd (ix1 p)
      = x (ix1 p) + ∑ k ∈ Finset.univ.filter (fun k : Fin R => (idx (ix2 k (0 : Fin 1))).toInt = (p.val : Int)),
          upd (ix1 k) := by
  unfold Ideal.hostScatterAdd
  congr 1
  rw [Finset.sum_filter, Finset.sum_filter]
  let e : (⟨1, ![R]⟩ : Shape).Idx ≃ Fin R :=
    { toFun := fun j => j 0, invFun := ix1, left_inv := fun j => (eq_ix1 j).symm, right_inv := fun _ => rfl }
  refine Fintype.sum_equiv e _ _ (fun j => ?_)
  obtain ⟨k, rfl⟩ : ∃ k : Fin R, j = ix1 k := ⟨j 0, eq_ix1 j⟩
  exact if_congr (flat_lands_iff wf idx k p) rfl rfl

end flat

/-! ## Rows of `C` features `[R, C]` into `[N, C]` -/

/-- The dimension numbers of a segment sum of `[R, C]` rows into `[N, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows
variable {N R C w : Nat} (wf : ScatterDims.WF ⟨2, ![N, C]⟩ ⟨2, ![R, 1]⟩ ⟨2, ![R, C]⟩ [1] [0] [0] 1)
  (idx : IVec ⟨2, ![R, 1]⟩ w)

/-- On the node axis the landing coordinate of update `(k, f)` is row `k`'s index word read signed. -/
theorem row_coord0 (k : Fin R) (f : Fin C) :
    (rowDims N R C wf).start (ix2 k f) idx 0 + ((rowDims N R C wf).window (ix2 k f) 0 : Int)
      = (idx (ix2 k (0 : Fin 1))).toInt := by
  have hw : (rowDims N R C wf).window (ix2 k f) 0 = 0 := by
    unfold ScatterDims.window
    rw [dif_neg (by simp [ScatterDims.sKept, Shape.kept])]
  rw [hw]
  unfold ScatterDims.start
  rw [dif_pos (show (0 : Fin 2) ∈ (rowDims N R C wf).scatterDimsToOperandDims from List.mem_singleton.mpr rfl)]
  have hsi : (rowDims N R C wf).siIdx (ix2 k f) ⟨List.idxOf (0 : Fin 2) (rowDims N R C wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- On the feature axis the landing coordinate of update `(k, f)` is `f`. -/
theorem row_coord1 (k : Fin R) (f : Fin C) :
    (rowDims N R C wf).start (ix2 k f) idx 1 + ((rowDims N R C wf).window (ix2 k f) 1 : Int) = (f.val : Int) := by
  have hs : (rowDims N R C wf).start (ix2 k f) idx 1 = 0 := by
    unfold ScatterDims.start
    rw [dif_neg (by simp)]
  have hw : (rowDims N R C wf).window (ix2 k f) 1 = f.val := by
    unfold ScatterDims.window
    rw [dif_pos (by simp [ScatterDims.sKept, Shape.kept])]
    rfl
  rw [hs, hw]
  simp

/-- Update `(k, f)` lands on `(p, q)` exactly when row `k`'s index word, read signed, is `p`, and `f = q`. -/
theorem row_lands_iff (k : Fin R) (f : Fin C) (p : Fin N) (q : Fin C) :
    (rowDims N R C wf).resultIdx? (ix2 k f) idx = some (ix2 p q)
      ↔ (idx (ix2 k (0 : Fin 1))).toInt = (p.val : Int) ∧ f = q := by
  unfold ScatterDims.resultIdx?
  constructor
  · intro h
    split at h
    · rename_i hall
      have e := Option.some.inj h
      have h0 : ((rowDims N R C wf).start (ix2 k f) idx 0 + ((rowDims N R C wf).window (ix2 k f) 0 : Int)).toNat = p.val :=
        congrArg Fin.val (congrFun e 0)
      have h1 : ((rowDims N R C wf).start (ix2 k f) idx 1 + ((rowDims N R C wf).window (ix2 k f) 1 : Int)).toNat = q.val :=
        congrArg Fin.val (congrFun e 1)
      have h2 := (hall 0).1
      rw [row_coord0] at h0 h2
      rw [row_coord1] at h1
      exact ⟨by omega, Fin.ext (by omega)⟩
    · cases h
  · rintro ⟨hv, rfl⟩
    have hall : ∀ a : Fin 2, 0 ≤ (rowDims N R C wf).start (ix2 k f) idx a + ((rowDims N R C wf).window (ix2 k f) a : Int)
        ∧ (rowDims N R C wf).start (ix2 k f) idx a + ((rowDims N R C wf).window (ix2 k f) a : Int)
          < ((⟨2, ![N, C]⟩ : Shape).size a : Int) := by
      refine Fin.forall_fin_two.mpr ⟨?_, ?_⟩
      · rw [row_coord0, hv]
        have := p.isLt
        refine ⟨by omega, ?_⟩
        show (p.val : Int) < (N : Int)
        omega
      · rw [row_coord1]
        have := f.isLt
        refine ⟨by omega, ?_⟩
        show (f.val : Int) < (C : Int)
        omega
    rw [dif_pos hall]
    congr 1
    funext a
    refine Fin.ext ?_
    match a with
    | ⟨0, _⟩ =>
      show ((rowDims N R C wf).start (ix2 k f) idx 0 + ((rowDims N R C wf).window (ix2 k f) 0 : Int)).toNat = p.val
      rw [row_coord0, hv]; simp
    | ⟨1, _⟩ =>
      show ((rowDims N R C wf).start (ix2 k f) idx 1 + ((rowDims N R C wf).window (ix2 k f) 1 : Int)).toNat = f.val
      rw [row_coord1]; simp

/-- THE ROW SCATTER-ADD READ AT `(p, q)`: the operand there plus the sum, over the update rows landing on `p`,
    of their feature `q`. -/
theorem scatterAdd_rows_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ k ∈ Finset.univ.filter (fun k : Fin R => (idx (ix2 k (0 : Fin 1))).toInt = (p.val : Int)),
          upd (ix2 k q) := by
  unfold Ideal.hostScatterAdd
  congr 1
  rw [Finset.sum_filter, sum_idx2, Finset.sum_filter]
  refine Finset.sum_congr rfl fun k _ => ?_
  by_cases hk : (idx (ix2 k (0 : Fin 1))).toInt = (p.val : Int)
  · rw [if_pos hk]
    rw [Finset.sum_eq_single q]
    · rw [if_pos ((row_lands_iff wf idx k q p q).mpr ⟨hk, rfl⟩)]
    · intro b _ hb
      rw [if_neg (fun h => hb ((row_lands_iff wf idx k b p q).mp h).2)]
    · intro h; exact absurd (Finset.mem_univ q) h
  · rw [if_neg hk]
    refine Finset.sum_eq_zero fun b _ => ?_
    rw [if_neg (fun h => hk ((row_lands_iff wf idx k b p q).mp h).1)]

end rows

end Idealize.ShloMosaic.ScatterRows

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«121748_j11862699671900_2_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.AggReal.lean ====
/-
  The aggregate of real inputs is real.

  The aggregate is, for each node p and feature q, the entry z(p,q) of a start array plus the sum, over the edges k
  whose destination word names p, of x0(src_k, q) + x1(k, q): a gathered row of the node features (the source word read
  signed and clamped into the node range) plus the edge's own features. A finite sum of real numbers is real; so when
  x0, x1 and z have real entries, every entry of the aggregate is a real number. The start array is the zero array.
-/
import proofs.«121748_j11862699671900_2_alg».proof.Proof.Gen.KernelIdeal
import Idealize.ShloMosaic.PureOps.Ideal.Laws
import proofs.«121748_j11862699671900_2_alg».proof.Proof.LibGatherRows2
import proofs.«121748_j11862699671900_2_alg».proof.Proof.LibScatterRows
import proofs.«121748_j11862699671900_2_alg».proof.Proof.LibBatchNorm

noncomputable section

open scoped BigOperators

namespace Cert.KernelIdeal.AggReal

open Cert.KernelIdeal Idealize.ShloMosaic Idealize.ShloMosaic.ValueIdx Cert.LibBatchNorm
open Cert.KernelIdeal.Facts₀

variable [Facts₀]

/-- The program's gather record is the row gather of a [50000,128] operand at 600000 start rows. -/
theorem gather_eq :
    gather_S50000x128_S600000x1_S600000x128_1_0_n_n_0_1_1128
      = GatherRows2.matDims 50000 600000 128 gather_S50000x128_S600000x1_S600000x128_1_0_n_n_0_1_1128_wf := rfl

/-- The program's scatter record is the row scatter of 600000 update rows into a [50000,128] operand. -/
theorem scatter_eq :
    scatter_S50000x128_S600000x1_S600000x128_1_0_0_1
      = ScatterRows.rowDims 50000 600000 128 scatter_S50000x128_S600000x1_S600000x128_1_0_0_1_wf := rfl

/-- A gathered entry of an array of reals is real: it is an entry of the array. -/
theorem gather_real (x0 : FVec Ideal S50000x128 .f32) (iS : IVec S600000x1 32) (h0 : ∀ i, IsReal (x0 i))
    (k : Fin 600000) (q : Fin 128) :
    IsReal (Host.gather gather_S50000x128_S600000x1_S600000x128_1_0_n_n_0_1_1128 x0 iS (ix2 k q)) := by
  rw [gather_eq, GatherRows2.gather_mat_apply (by norm_num)]
  exact h0 _

theorem agg_real (x0 : FVec Ideal S50000x128 .f32) (x1 : FVec Ideal S600000x128 .f32) (iS iD : IVec S600000x1 32)
    (z : FVec Ideal S50000x128 .f32) (h0 : ∀ i, IsReal (x0 i)) (h1 : ∀ i, IsReal (x1 i)) (hz : ∀ i, IsReal (z i))
    (p : Fin 50000) (q : Fin 128) :
    IsReal (Host.scatterAdd (F := Ideal) scatter_S50000x128_S600000x1_S600000x128_1_0_0_1 z iD
      (addf (Host.gather gather_S50000x128_S600000x1_S600000x128_1_0_n_n_0_1_1128 x0 iS) x1) (ix2 p q)) := by
  show IsReal (Ideal.hostScatterAdd
    (ScatterRows.rowDims 50000 600000 128 scatter_S50000x128_S600000x1_S600000x128_1_0_0_1_wf) z iD
    (addf (Host.gather gather_S50000x128_S600000x1_S600000x128_1_0_n_n_0_1_1128 x0 iS) x1) (ix2 p q))
  rw [ScatterRows.scatterAdd_rows_apply]
  refine (hz _).add (IsReal.sum _ _ fun k _ => ?_)
  exact IsReal.add (gather_real x0 iS h0 k q) (h1 _)

/-- Every entry of the zero array is the real number 0. -/
theorem zeros_real (i : S50000x128.Idx) :
    IsReal ((broadcastInDim S50000x128 ![] bcast_S_S50000x128 (constant (F := Ideal) S_ .f32 0x00000000#32)
      : FVec Ideal S50000x128 .f32) i) := by
  show IsReal (Ideal.ofBits .f32 0x00000000#32)
  rw [Ideal.ofBits_zero_f32]
  exact isReal_zero

end Cert.KernelIdeal.AggReal

end
-- ==== Proof.FiniteInputs.lean ====
/-
  From "every float input array is finite" to "every float input entry is a real number".

  The precondition is the conjunction of eleven tests all(|x| < +∞), one per float input array; it is stated as: the
  conjunction's one bit is 1. A conjunction that is 1 has both its parts 1; a test all(p) that is 1 has p 1 at every index;
  and an extended real x with max x (−x) strictly below +∞ is neither infinity, hence a real number.
-/
import proofs.«121748_j11862699671900_2_alg».proof.Pre_finite_inputs
import Idealize.ShloMosaic.Lib.ReduceAll
import Idealize.ShloMosaic.Lib.ValueIdx
import proofs.«121748_j11862699671900_2_alg».proof.Proof.LibBatchNorm
import proofs.«121748_j11862699671900_2_alg».proof.Proof.LibERealFinite

noncomputable section

namespace Cert.FiniteInputs

open Idealize.ShloMosaic Cert.Pre_finite_inputs Cert.LibBatchNorm

/-- The result of a full reduction has one index. -/
instance : Subsingleton S_.Idx := ⟨fun a b => funext fun d => d.elim0⟩

/-- A conjunction of two bits that is 1 has both bits 1. -/
theorem and_split {A B : IVec S_ 1} (h : andi A B ValueIdx.ix0 = 1#1) :
    A ValueIdx.ix0 = 1#1 ∧ B ValueIdx.ix0 = 1#1 :=
  IntOp.andi_eq_one.1 h

/-- One test all(|x| < +∞) that is 1: every entry of x is a real number. -/
theorem all_finite {s : Shape} {axes : List (Fin s.rank)} (x : FVec Ideal s .f32)
    (g : S_.BroadcastsInDim s (![] : Fin 0 → Fin s.rank)) (h : s.ReducesTo axes S_) (hu : 0 < S_.numel)
    (e : Host.reduce IntOp.andi
        (cmpf .olt (Host.absf x) (broadcastInDim s ![] g (constant (F := Ideal) S_ .f32 0x7F800000#32)))
        (constantI S_ 1 1#1) h hu ValueIdx.ix0 = 1#1)
    (i : s.Idx) : IsReal (x i) :=
  Cert.LibERealFinite.real_of_abs_lt (x i) (Host.reduce_andi_all _ _ h hu ValueIdx.ix0 e i)

theorem inputs_real [Cert.Pre_finite_inputs.Facts] (x0 : FVec Ideal S50000x128 .f32) (x1 : FVec Ideal S600000x128 .f32)
    (x2 : FVec Ideal S128x128 .f32) (x3 : FVec Ideal S128 .f32) (x4 : FVec Ideal S128x128 .f32)
    (x5 x6 x7 x8 x9 x10 : FVec Ideal S128 .f32) (x11 : IVec S2x600000 32)
    (h : Cert.Pre_finite_inputs.fn (F := Ideal) x0 x1 x2 x3 x4 x5 x6 x7 x8 x9 x10 x11 = (fun _ => 1#1)) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) := by
  have h0 := congrFun h ValueIdx.ix0
  dsimp only [fn, fn_part1, fn_part2, fn_part3] at h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  exact ⟨all_finite x0 _ _ _ e0, all_finite x1 _ _ _ e1, all_finite x2 _ _ _ e2, all_finite x3 _ _ _ e3,
    all_finite x4 _ _ _ e4, all_finite x5 _ _ _ e5, all_finite x6 _ _ _ e6, all_finite x7 _ _ _ e7,
    all_finite x8 _ _ _ e8, all_finite x9 _ _ _ e9, all_finite x10 _ _ _ e10⟩

end Cert.FiniteInputs

end
-- ==== Proof.SpecLaws.lean ====
/-
  Laws of the block's entry-wise description: its constants are the real numbers they spell, every stage keeps real
  entries real, and the two forms of the column variance are one function on real columns.

  * The constants: 128, 50000, 2 and 0 are those reals, and the stabiliser ε is a positive real.
  * Realness: sums, products, differences and maxima of reals are real; a row's variance is a mean of squares of reals,
    hence a non-negative real, so variance + ε is a positive real and its inverse square root is a real. Hence the
    perceptron's output and its row normalisation have real entries whenever the inputs do.
  * The variance: for a real column z of N ≠ 0 entries with sum S, mean M = S/N and a real scale α,
    Σ (z − αM)² = Σ z² − 2αM·S + N·(αM)² and S = N·M, so (Σ (z − αM)²)/N = (Σ z²)/N − M²·α·(2 − α).
-/
import proofs.«121748_j11862699671900_2_alg».proof.Proof.Spec
import proofs.«121748_j11862699671900_2_alg».proof.Proof.LibBatchNorm

noncomputable section

open scoped BigOperators

namespace Cert.Spec

open Idealize.ShloMosaic Cert.LayerNorm Cert.LibBatchNorm Cert.LibERealFinite

/-! ## The constants -/

theorem cN_eq : cN = ((50000 : ℝ) : EReal) := by
  simp [cN, Ideal.ofBits, Ideal.ieee, -EReal.coe_mul]; norm_num

theorem c128_eq : c128 = ((128 : ℝ) : EReal) := by
  simp [c128, Ideal.ofBits, Ideal.ieee, -EReal.coe_mul]; norm_num

theorem two_eq : two = ((2 : ℝ) : EReal) := by
  simp [two, Ideal.ofBits, Ideal.ieee, -EReal.coe_mul]; norm_num

theorem zero_eq : zero = (0 : EReal) := Ideal.ofBits_zero_f32

theorem eps_pos : ∃ e : ℝ, 0 < e ∧ eps = (e : EReal) := by
  refine ⟨(10995116 : ℝ) * (2 : ℝ) ^ (-40 : Int), by positivity, ?_⟩
  simp [eps, Ideal.ofBits, Ideal.ieee, -EReal.coe_mul]

/-! ## The two forms of the column variance -/

/-- The variance identity over the reals, about a scaled mean. -/
theorem real_var_scaled {N : ℕ} (hN0 : N ≠ 0) (z : Fin N → ℝ) (α : ℝ) :
    (∑ p, z p * z p) * (1 / (N : ℝ))
        - (∑ p, z p) * (1 / (N : ℝ)) * ((∑ p, z p) * (1 / (N : ℝ))) * α * (2 - α)
      = (∑ p, (z p - α * ((∑ p, z p) * (1 / (N : ℝ)))) * (z p - α * ((∑ p, z p) * (1 / (N : ℝ))))) * (1 / (N : ℝ)) := by
  have hN' : (N : ℝ) ≠ 0 := Nat.cast_ne_zero.mpr hN0
  rw [real_sum_sq_dev]
  field_simp
  ring

theorem var_eq {N : ℕ} (hN : cN = ((N : ℝ) : EReal)) (hN0 : N ≠ 0) (Y : Fin N → Fin 128 → EReal)
    (a : Fin 128 → EReal) (q : Fin 128) (hY : ∀ p, IsReal (Y p q)) (ha : IsReal (a q)) :
    varExpanded Y a q = varCentred Y a q := by
  have hN' : (N : ℝ) ≠ 0 := Nat.cast_ne_zero.mpr hN0
  choose z hz using hY
  obtain ⟨α, hα⟩ := ha
  unfold varExpanded varCentred colMean
  rw [hN, hα, two_eq]
  simp only [hz]
  simp only [← EReal.coe_mul, ← coe_sum, div_coe_coe _ hN', ← EReal.coe_sub, ← EReal.coe_add]
  exact congrArg _ (real_var_scaled hN0 z α)

theorem result_eq {N : ℕ} (hN : cN = ((N : ℝ) : EReal)) (hN0 : N ≠ 0) (Y X : Fin N → Fin 128 → EReal)
    (a w c : Fin 128 → EReal) (hY : ∀ p q, IsReal (Y p q)) (ha : ∀ q, IsReal (a q)) (p : Fin N) (q : Fin 128) :
    result varExpanded Y X a w c p q = result varCentred Y X a w c p q := by
  unfold result
  rw [var_eq hN hN0 Y a q (fun p => hY p q) (ha q)]

/-! ## Real entries stay real -/

theorem zero_real : IsReal zero := zero_eq ▸ isReal_zero

theorem c128_real : IsReal c128 := c128_eq ▸ isReal_coe _

theorem c128_ne_zero : c128 ≠ 0 := by
  rw [c128_eq]; exact EReal.coe_ne_zero.mpr (by norm_num)

theorem hid_real {m : ℕ} (A : Fin m → Fin 128 → EReal) (W1 : Fin 128 → Fin 128 → EReal) (b1 : Fin 128 → EReal)
    (hA : ∀ p c, IsReal (A p c)) (hW1 : ∀ c j, IsReal (W1 c j)) (hb1 : ∀ j, IsReal (b1 j)) (p : Fin m) (j : Fin 128) :
    IsReal (hid A W1 b1 p j) :=
  IsReal.max ((IsReal.sum_univ _ fun c => (hA p c).mul (hW1 c j)).add (hb1 j)) zero_real

theorem lin_real {m : ℕ} (A : Fin m → Fin 128 → EReal) (W1 : Fin 128 → Fin 128 → EReal) (b1 : Fin 128 → EReal)
    (W2 : Fin 128 → Fin 128 → EReal) (b2 : Fin 128 → EReal) (hA : ∀ p c, IsReal (A p c)) (hW1 : ∀ c j, IsReal (W1 c j))
    (hb1 : ∀ j, IsReal (b1 j)) (hW2 : ∀ c j, IsReal (W2 c j)) (hb2 : ∀ j, IsReal (b2 j)) (p : Fin m) (q : Fin 128) :
    IsReal (lin A W1 b1 W2 b2 p q) :=
  (IsReal.sum_univ _ fun c => (hid_real A W1 b1 hA hW1 hb1 p c).mul (hW2 c q)).add (hb2 q)

/-- A real row's variance plus ε is a positive real. -/
theorem rowVar_add_eps_pos {n : ℕ} (c : ℝ) (hc : 0 < c) (h : Fin n → EReal) (hh : ∀ k, IsReal (h k)) :
    IsReal (Ideal.div (∑ k : Fin n, (h k - Ideal.div (∑ j : Fin n, h j) (c : EReal)) * (h k - Ideal.div (∑ j : Fin n, h j) (c : EReal))) (c : EReal) + eps)
      ∧ 0 < Ideal.div (∑ k : Fin n, (h k - Ideal.div (∑ j : Fin n, h j) (c : EReal)) * (h k - Ideal.div (∑ j : Fin n, h j) (c : EReal))) (c : EReal) + eps := by
  obtain ⟨e, he, hee⟩ := eps_pos
  choose z hz using hh
  have hc' : c ≠ 0 := hc.ne'
  simp only [hz, hee]
  simp only [← EReal.coe_mul, ← coe_sum, div_coe_coe _ hc', ← EReal.coe_sub, ← EReal.coe_add]
  refine ⟨isReal_coe _, EReal.coe_pos.mpr ?_⟩
  have h0 : 0 ≤ (∑ k, (z k - (∑ j, z j) * (1 / c)) * (z k - (∑ j, z j) * (1 / c))) * (1 / c) :=
    mul_nonneg (Finset.sum_nonneg fun r _ => mul_self_nonneg _) (by positivity)
  linarith

theorem lnE_real {m : ℕ} (H : Fin m → Fin 128 → EReal) (g β : Fin 128 → EReal) (hH : ∀ p k, IsReal (H p k))
    (hg : ∀ q, IsReal (g q)) (hβ : ∀ q, IsReal (β q)) (p : Fin m) (q : Fin 128) : IsReal (lnE H g β p q) := by
  unfold lnE normEntry
  rw [c128_eq]
  obtain ⟨hV, hVpos⟩ := rowVar_add_eps_pos (128 : ℝ) (by norm_num) (H p) (hH p)
  have hmean : IsReal (Ideal.div (∑ k : Fin 128, H p k) ((128 : ℝ) : EReal)) :=
    IsReal.div (IsReal.sum_univ _ (hH p)) (isReal_coe _) (EReal.coe_ne_zero.mpr (by norm_num))
  exact ((((hH p q).sub hmean).mul (IsReal.rsqrt hV hVpos)).mul (hg q)).add (hβ q)

theorem Yof_real {m : ℕ} (A : Fin m → Fin 128 → EReal) (W1 : Fin 128 → Fin 128 → EReal) (b1 : Fin 128 → EReal)
    (W2 : Fin 128 → Fin 128 → EReal) (b2 g β : Fin 128 → EReal) (hA : ∀ p c, IsReal (A p c))
    (hW1 : ∀ c j, IsReal (W1 c j)) (hb1 : ∀ j, IsReal (b1 j)) (hW2 : ∀ c j, IsReal (W2 c j)) (hb2 : ∀ j, IsReal (b2 j))
    (hg : ∀ q, IsReal (g q)) (hβ : ∀ q, IsReal (β q)) (p : Fin m) (q : Fin 128) :
    IsReal (Yof A W1 b1 W2 b2 g β p q) :=
  lnE_real _ g β (fun p k => lin_real A W1 b1 W2 b2 hA hW1 hb1 hW2 hb2 p k) hg hβ p q

end Cert.Spec

end
-- ==== Proof.RefValue.lean ====
/-
  The reference program's result at an entry (p, q), on the extended reals.

  The reference forms the aggregate A (for each node, the sum over its incoming edges of the source node's features
  plus the edge's features) and from there on is a chain of whole-array operations. Read one entry at a time:
  * the hidden layer is max(Σ_c A(p,c)·W₁(c,j) + b₁(j), 0) and the perceptron's output is
    Σ_c hid(p,c)·W₂(c,q) + b₂(q): two products over the 128 features, each followed by a bias laid out as a row
    and repeated down the rows (`hidden_at`, `perceptron_at`);
  * the next twenty-four operations are the layer normalisation of every row over its 128 entries — row sums from
    zero, divided by 128, spread back across the columns, the squares of the centred entries summed and divided the
    same way, ε added, the inverse square root spread and multiplied in, then the scale and the shift
    (`rowNormalised_at`);
  * a sum from zero down the 50000 rows of column q, divided by 50000, is the column's mean M_q (`columnMean_at`);
    the entry less a_q·M_q is the centred entry (`centred_at`); the centred entries squared, summed down the column
    and divided by 50000 are the column's variance about the scaled mean (`columnVariance_at`);
  * the centred entry times the inverse square root of that variance plus ε, times w_q, plus c_q, clamped below at
    zero, plus the node's own feature, is the result (`result_at`).
  A sum "from zero" is 0 + Σ, and 0 + s = s on the extended reals; nothing else is used: no entry is assumed finite.
  The aggregate itself is never opened: it enters as an array of extended reals.
-/
import proofs.«121748_j11862699671900_2_alg».proof.Proof.RefRead
import proofs.«121748_j11862699671900_2_alg».proof.Proof.Spec

noncomputable section

open scoped BigOperators

namespace Cert.RefSide

open Cert.ReferenceIdeal Cert.ReferenceIdeal.Gen Cert.ReferenceIdeal.ReadP Idealize.ShloMosaic Idealize.ShloMosaic.ValueIdx
  Cert.Spec Cert.LayerNorm

/-! ## The arguments as matrices and vectors of extended reals -/

/-- A [50000,128] array as a matrix. -/
abbrev nodeM (x : (⟨S50000x128, .f32⟩ : BufTy).Contents (Elt Ideal)) : Fin 50000 → Fin 128 → EReal := fun p c => x (ix2 p c)
/-- A [128,128] array as a matrix. -/
abbrev matM (w : (⟨S128x128, .f32⟩ : BufTy).Contents (Elt Ideal)) : Fin 128 → Fin 128 → EReal := fun c j => w (ix2 c j)
/-- A [128] array as a vector. -/
abbrev vecM (v : (⟨S128, .f32⟩ : BufTy).Contents (Elt Ideal)) : Fin 128 → EReal := fun j => v (ix1 j)

/-- The aggregate A as a matrix: node p, feature c. -/
abbrev aggM (x0 : (⟨S50000x128, .f32⟩ : BufTy).Contents (Elt Ideal)) (x1 : (⟨S600000x128, .f32⟩ : BufTy).Contents (Elt Ideal)) (x11 : (⟨S2x600000, .i32⟩ : BufTy).Contents (Elt Ideal)) : Fin 50000 → Fin 128 → EReal :=
  fun p c => val_main_v14 (F := Ideal) x0 x1 x11 (ix2 p c)

/-- The row-normalised perceptron output y(p,q) of the reference's arguments. -/
abbrev Yref (x0 : (⟨S50000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x11 : (⟨S2x600000, .i32⟩ : BufTy).Contents (Elt Ideal)) :
    Fin 50000 → Fin 128 → EReal :=
  Spec.Yof (aggM x0 x1 x11) (matM x2) (vecM x3) (matM x4) (vecM x5) (vecM x6) (vecM x7)

/-! ## Where each operation reads its operands

  A product's entry (p, j) reads row p of the left factor and column j of the right one; a vector laid out as a
  [1,128] row and repeated down the rows is read, at (p, j), at j; a sum down the rows at column q reads (k, q). -/

theorem lidx15 (p : Fin 50000) (j k : Fin 128) : lidx_main_v15 (ix2 p j) k = ix2 p k :=
  funext fun a => Fin.ext (by match a with | ⟨0, _⟩ => rfl | ⟨1, _⟩ => rfl)
theorem ridx15 (p : Fin 50000) (j k : Fin 128) : ridx_main_v15 (ix2 p j) k = ix2 k j :=
  funext fun a => Fin.ext (by match a with | ⟨0, _⟩ => rfl | ⟨1, _⟩ => rfl)
theorem lidx20 (p : Fin 50000) (j k : Fin 128) : lidx_main_v20 (ix2 p j) k = ix2 p k :=
  funext fun a => Fin.ext (by match a with | ⟨0, _⟩ => rfl | ⟨1, _⟩ => rfl)
theorem ridx20 (p : Fin 50000) (j k : Fin 128) : ridx_main_v20 (ix2 p j) k = ix2 k j :=
  funext fun a => Fin.ext (by match a with | ⟨0, _⟩ => rfl | ⟨1, _⟩ => rfl)
theorem idx17 (p : Fin 50000) (j : Fin 128) : idx_main_v17 (ix2 p j) = ix2 (0 : Fin 1) j :=
  funext fun a => Fin.ext (by match a with | ⟨0, _⟩ => rfl | ⟨1, _⟩ => rfl)
theorem idx22 (p : Fin 50000) (j : Fin 128) : idx_main_v22 (ix2 p j) = ix2 (0 : Fin 1) j :=
  funext fun a => Fin.ext (by match a with | ⟨0, _⟩ => rfl | ⟨1, _⟩ => rfl)
theorem idx53 (p : Fin 50000) (j : Fin 128) : idx_main_v53 (ix2 p j) = ix2 (0 : Fin 1) j :=
  funext fun a => Fin.ext (by match a with | ⟨0, _⟩ => rfl | ⟨1, _⟩ => rfl)
theorem idx63 (p : Fin 50000) (j : Fin 128) : idx_main_v63 (ix2 p j) = ix2 (0 : Fin 1) j :=
  funext fun a => Fin.ext (by match a with | ⟨0, _⟩ => rfl | ⟨1, _⟩ => rfl)
theorem idx66 (p : Fin 50000) (j : Fin 128) : idx_main_v66 (ix2 p j) = ix2 (0 : Fin 1) j :=
  funext fun a => Fin.ext (by match a with | ⟨0, _⟩ => rfl | ⟨1, _⟩ => rfl)
theorem idx69 (p : Fin 50000) (j : Fin 128) : idx_main_v69 (ix2 p j) = ix2 (0 : Fin 1) j :=
  funext fun a => Fin.ext (by match a with | ⟨0, _⟩ => rfl | ⟨1, _⟩ => rfl)
theorem idx16 (z : Fin 1) (j : Fin 128) : idx_main_v16 (ix2 z j) = ix1 j :=
  funext fun a => Fin.ext (by match a with | ⟨0, _⟩ => rfl)
theorem idx21 (z : Fin 1) (j : Fin 128) : idx_main_v21 (ix2 z j) = ix1 j :=
  funext fun a => Fin.ext (by match a with | ⟨0, _⟩ => rfl)
theorem idx52 (z : Fin 1) (j : Fin 128) : idx_main_v52 (ix2 z j) = ix1 j :=
  funext fun a => Fin.ext (by match a with | ⟨0, _⟩ => rfl)
theorem idx62 (z : Fin 1) (j : Fin 128) : idx_main_v62 (ix2 z j) = ix1 j :=
  funext fun a => Fin.ext (by match a with | ⟨0, _⟩ => rfl)
theorem idx65 (z : Fin 1) (j : Fin 128) : idx_main_v65 (ix2 z j) = ix1 j :=
  funext fun a => Fin.ext (by match a with | ⟨0, _⟩ => rfl)
theorem idx68 (z : Fin 1) (j : Fin 128) : idx_main_v68 (ix2 z j) = ix1 j :=
  funext fun a => Fin.ext (by match a with | ⟨0, _⟩ => rfl)
theorem idx48 (q : Fin 128) (k : Fin 50000) : idx_main_v48 (ix1 q) k = ix2 k q :=
  funext fun a => Fin.ext (by match a with | ⟨0, _⟩ => rfl | ⟨1, _⟩ => rfl)
theorem idx56 (q : Fin 128) (k : Fin 50000) : idx_main_v56 (ix1 q) k = ix2 k q :=
  funext fun a => Fin.ext (by match a with | ⟨0, _⟩ => rfl | ⟨1, _⟩ => rfl)

/-- A sum from zero divided by d is the sum divided by d. -/
theorem div_zero_add (s d : EReal) : Ideal.div (Ideal.ofBits .f32 0x00000000#32 + s) d = Ideal.div s d := by
  rw [Ideal.ofBits_zero_f32, zero_add]

section
variable (x0 : (⟨S50000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 x9 x10 : (⟨S128, .f32⟩ : BufTy).Contents (Elt Ideal)) (x11 : (⟨S2x600000, .i32⟩ : BufTy).Contents (Elt Ideal))

/-! ## The perceptron -/

/-- The clamped first layer at (p, j): max(Σ_c A(p,c)·W₁(c,j) + b₁(j), 0). -/
theorem hidden_at (p : Fin 50000) (j : Fin 128) :
    val_main_v19 (F := Ideal) x0 x1 x2 x3 x11 (ix2 p j) = Spec.hid (aggM x0 x1 x11) (matM x2) (vecM x3) p j := by
  rw [val_main_v19_apply, val_main_v18_apply, val_main_v15_apply, val_main_v17_apply, val_main_v16_apply,
    val_main_call0_v0_apply, val_main_call0_cst_apply]
  simp only [lidx15, ridx15, idx17, idx16]
  rfl

/-- The perceptron's output at (p, q): Σ_c hid(p,c)·W₂(c,q) + b₂(q). -/
theorem perceptron_at (p : Fin 50000) (q : Fin 128) :
    val_main_v23 (F := Ideal) x0 x1 x2 x3 x4 x5 x11 (ix2 p q)
      = Spec.lin (aggM x0 x1 x11) (matM x2) (vecM x3) (matM x4) (vecM x5) p q := by
  rw [val_main_v23_apply, val_main_v20_apply, val_main_v22_apply, val_main_v21_apply]
  simp only [lidx20, ridx20, idx22, idx21, hidden_at]
  rfl

/-! ## The normalisation of each row -/

/-- The twenty-four operations after the perceptron are, read as one term, the layer normalisation of its rows with
    divisor 128 and shift ε, scale the seventh argument and offset the eighth. -/
theorem rows_are_layerNorm :
    val_main_v47 (F := Ideal) x0 x1 x2 x3 x4 x5 x6 x7 x11
      = hostLayerNorm (m := 50000) (n := 128) 0x43000000#32 0x3727C5AC#32 bcast_S_S50000x1 bcast_S50000_S50000x1_0
          bcast_S50000x1_S50000x128_0_1 bcast_S128_S1x128_1 bcast_S1x128_S50000x128_0_1 reducesTo_S50000x128_S50000_d1 h_S_
          (val_main_v23 (F := Ideal) x0 x1 x2 x3 x4 x5 x11) x6 x7 := rfl

/-- The row-normalised perceptron output at (p, q) is y(p,q). -/
theorem rowNormalised_at (p : Fin 50000) (q : Fin 128) :
    val_main_v47 (F := Ideal) x0 x1 x2 x3 x4 x5 x6 x7 x11 (ix2 p q) = Yref x0 x1 x2 x3 x4 x5 x6 x7 x11 p q := by
  rw [rows_are_layerNorm, hostLayerNorm_apply (m := 50000) (n := 128) _ _ _ _ _ _ _ _ (by decide) _ _ _ _ p q]
  show _ = normEntry Spec.c128 Spec.eps (Spec.lin (aggM x0 x1 x11) (matM x2) (vecM x3) (matM x4) (vecM x5) p) q
    (vecM x6 q) (vecM x7 q)
  exact normEntry_congr _ _ (fun k => perceptron_at x0 x1 x2 x3 x4 x5 x11 p k) q rfl rfl

/-! ## The statistics of each column -/

/-- The mean of column q over the 50000 rows. -/
theorem columnMean_at (q : Fin 128) :
    val_main_v50 (F := Ideal) x0 x1 x2 x3 x4 x5 x6 x7 x11 (ix1 q) = Spec.colMean (Yref x0 x1 x2 x3 x4 x5 x6 x7 x11) q := by
  rw [val_main_v50_apply, val_main_v48_apply, val_main_v49_apply, val_main_cst_6_apply, val_main_cst_7_apply]
  simp only [idx48, rowNormalised_at]
  exact div_zero_add _ _

/-- The entry less the scaled mean of its column. -/
theorem centred_at (p : Fin 50000) (q : Fin 128) :
    val_main_v54 (F := Ideal) x0 x1 x2 x3 x4 x5 x6 x7 x10 x11 (ix2 p q)
      = Yref x0 x1 x2 x3 x4 x5 x6 x7 x11 p q - vecM x10 q * Spec.colMean (Yref x0 x1 x2 x3 x4 x5 x6 x7 x11) q := by
  rw [val_main_v54_apply, val_main_v53_apply, val_main_v52_apply, val_main_v51_apply]
  simp only [idx53, idx52, rowNormalised_at, columnMean_at]
  rfl

/-- The variance of column q about its scaled mean: the mean of the squared centred entries. -/
theorem columnVariance_at (q : Fin 128) :
    val_main_v58 (F := Ideal) x0 x1 x2 x3 x4 x5 x6 x7 x10 x11 (ix1 q) = Spec.varCentred (Yref x0 x1 x2 x3 x4 x5 x6 x7 x11) (vecM x10) q := by
  rw [val_main_v58_apply, val_main_v56_apply, val_main_v57_apply, val_main_cst_8_apply, val_main_cst_9_apply]
  refine (div_zero_add _ _).trans ?_
  refine congrArg (fun s => Ideal.div s Spec.cN) (Finset.sum_congr rfl fun k _ => ?_)
  beta_reduce
  rw [idx56, val_main_v55_apply, centred_at]
  exact Ideal.mulf_def _ _

end

/-! ## The result -/

/-- The reference's result at (p, q) is the block's result with the column variance taken as the mean of the squared
    centred entries. -/
theorem result_at (x0 : (⟨S50000x128, .f32⟩ : BufTy).Contents (Elt Ideal)) (x1 : (⟨S600000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 x9 x10 : (⟨S128, .f32⟩ : BufTy).Contents (Elt Ideal)) (x11 : (⟨S2x600000, .i32⟩ : BufTy).Contents (Elt Ideal)) (p : Fin 50000) (q : Fin 128) :
    val_main_v72 (F := Ideal) x0 x1 x2 x3 x4 x5 x6 x7 x8 x9 x10 x11 (ix2 p q)
      = Spec.result Spec.varCentred
          (Spec.Yof (fun p c => val_main_v14 (F := Ideal) x0 x1 x11 (ix2 p c)) (fun c j => x2 (ix2 c j)) (fun j => x3 (ix1 j)) (fun c j => x4 (ix2 c j)) (fun j => x5 (ix1 j)) (fun j => x6 (ix1 j)) (fun j => x7 (ix1 j)))
          (fun p c => x0 (ix2 p c)) (fun j => x10 (ix1 j)) (fun j => x8 (ix1 j)) (fun j => x9 (ix1 j)) p q := by
  rw [val_main_v72_apply, val_main_v71_apply, val_main_v70_apply, val_main_v67_apply, val_main_v64_apply,
    val_main_v63_apply, val_main_v62_apply, val_main_v61_apply, val_main_v60_apply, val_main_v59_apply,
    val_main_cst_10_apply, val_main_v66_apply, val_main_v65_apply, val_main_v69_apply, val_main_v68_apply,
    val_main_call1_v0_apply, val_main_call1_cst_apply]
  simp only [idx63, idx62, idx66, idx65, idx69, idx68, centred_at, columnVariance_at]
  rfl

end Cert.RefSide

end
-- ==== Proof.Bridge.lean ====
/-
  The two programs end with the same result array.

  Kernel side: the result buffer holds the second region's array, whose entry (p,q) is the finishing step of y(p,q),
  the node feature, and the five rows at column q; the rows hold the mean scale, the column mean (the first
  accumulator divided by N), the expanded column variance (from the two accumulators), the weight and the offset; y
  and the accumulators are the first region's arrays, over the aggregate the host prefix forms. Reference side: the
  same finishing step with the centred column variance, over the same aggregate (the two host prefixes are one term).
  Under the precondition every input entry is real, hence the aggregate, hence y; the two variances then agree.
-/
import proofs.«121748_j11862699671900_2_alg».proof.Defs
import proofs.«121748_j11862699671900_2_alg».proof.Proof.KernelRun
import proofs.«121748_j11862699671900_2_alg».proof.Proof.Region0
import proofs.«121748_j11862699671900_2_alg».proof.Proof.Region1
import proofs.«121748_j11862699671900_2_alg».proof.Proof.HostGlue
import proofs.«121748_j11862699671900_2_alg».proof.Proof.AggReal
import proofs.«121748_j11862699671900_2_alg».proof.Proof.FiniteInputs
import proofs.«121748_j11862699671900_2_alg».proof.Proof.SpecLaws
import proofs.«121748_j11862699671900_2_alg».proof.Proof.RefValue
import proofs.«121748_j11862699671900_2_alg».proof.Proof.Gen.Pre_finite_inputs
import Idealize.ShloMosaic.Lib.StableHlo.Run

set_option maxRecDepth 16384

noncomputable section

open scoped BigOperators

namespace Cert.Bridge

open Cert.KernelIdeal Cert.KernelIdeal.Gen
open Idealize.ShloMosaic Idealize.ShloMosaic.TcCoe Idealize.ShloMosaic.ValueIdx Idealize.SL.Sem
open Cert.LibBatchNorm

variable (m : (ℓ : Loc nD τ sig) → Buf (Elt Ideal) ℓ) (ρ : Dev nD → PrngReg)

/-- The aggregate the kernel's host prefix forms. -/
def aggK (c : Dev nD) : S50000x128.Idx → EReal := (V1 m ρ c main_v14 : S50000x128.Idx → EReal)

/-- y over all rows, from the launch contents of the arguments and the aggregate. -/
def Yk (c : Dev nD) : Fin 50000 → Fin 128 → EReal :=
  Spec.Yof (fun r k => aggK m ρ c (ix2 r k))
    (fun a b => (m ((c : Thread nD τ).loc main_arg2) : S128x128.Idx → EReal) (ix2 a b))
    (fun j => (m ((c : Thread nD τ).loc main_arg3) : S128.Idx → EReal) (ix1 j))
    (fun a b => (m ((c : Thread nD τ).loc main_arg4) : S128x128.Idx → EReal) (ix2 a b))
    (fun j => (m ((c : Thread nD τ).loc main_arg5) : S128.Idx → EReal) (ix1 j))
    (fun j => (m ((c : Thread nD τ).loc main_arg6) : S128.Idx → EReal) (ix1 j))
    (fun j => (m ((c : Thread nD τ).loc main_arg7) : S128.Idx → EReal) (ix1 j))

/-- The first region's y is that function. -/
theorem Yg_eq (c : Dev nD) : Region0.Yg (V1 m ρ) c = Yk m ρ c := by
  unfold Region0.Yg Yk aggK
  rw [HostGlue.pre_w1 m ρ c, HostGlue.pre_w2 m ρ c]
  simp only [HostGlue.pre_b1 m ρ c, HostGlue.pre_b2 m ρ c, HostGlue.pre_g m ρ c, HostGlue.pre_beta m ρ c]

/-- The kernel's result buffer at an entry. -/
theorem kernel_at (c : Dev nD) (p : Fin 50000) (q : Fin 128) :
    (W4 m ρ c (Proc.devRef .tc main_v37) : S50000x128.Idx → EReal) (ix2 p q)
      = Spec.result Spec.varExpanded (Yk m ρ c)
          (fun r k => (m ((c : Thread nD τ).loc main_arg0) : S50000x128.Idx → EReal) (ix2 r k))
          (fun j => (m ((c : Thread nD τ).loc main_arg10) : S128.Idx → EReal) (ix1 j))
          (fun j => (m ((c : Thread nD τ).loc main_arg8) : S128.Idx → EReal) (ix1 j))
          (fun j => (m ((c : Thread nD τ).loc main_arg9) : S128.Idx → EReal) (ix1 j)) p q := by
  have h4 : (W4 m ρ c (Proc.devRef .tc main_v37) : S50000x128.Idx → EReal) = Region1.G (V3 m ρ) c :=
    (W4_arr m ρ c 7).trans (Region1.final (V3 m ρ) c)
  rw [h4, Region1.G_apply, HostGlue.mid_y m ρ c, Region0.y_at, HostGlue.mid_x m ρ c, HostGlue.mid_a m ρ c q,
    HostGlue.mid_mu m ρ c q, HostGlue.mid_var m ρ c q, HostGlue.mid_w m ρ c q, HostGlue.mid_c m ρ c q,
    Region0.sum_at, Region0.sumsq_at, Yg_eq, Spec.zero_eq, zero_add, zero_add]
  rfl

set_option maxHeartbeats 1000000 in
/-- The two programs' host prefixes form one aggregate: the same operations with the same dimension records. -/
theorem agg_eq (c : Dev nD) : aggK m ρ c
    = Cert.ReferenceIdeal.ReadP.val_main_v14 (F := Ideal) (m ((c : Thread nD τ).loc main_arg0))
        (m ((c : Thread nD τ).loc main_arg1)) (m ((c : Thread nD τ).loc main_arg11)) := by
  unfold aggK
  dsimp only [V1, W1, hostOps0]
  after_results_simp
  rfl

/-- Under the precondition y has real entries: the inputs are real, so is the aggregate (a gathered row plus an edge
    row, summed over finitely many edges), so is the perceptron's output, and a row's variance plus ε is positive. -/
theorem Yk_real (hpre : Cert.Pre_KernelIdeal m) (c : Dev nD) (r : Fin 50000) (q : Fin 128) : IsReal (Yk m ρ c r q) := by
  obtain ⟨h0, h1, h2, h3, h4, h5, h6, h7, h8, h9, h10⟩ := Cert.FiniteInputs.inputs_real _ _ _ _ _ _ _ _ _ _ _ _ (hpre c)
  obtain ⟨iS, iD, hagg⟩ := HostGlue.pre_agg m ρ c
  refine Spec.Yof_real _ _ _ _ _ _ _ (fun p k => ?_) (fun a b => h2 _) (fun j => h3 _) (fun a b => h4 _) (fun j => h5 _)
    (fun j => h6 _) (fun j => h7 _) r q
  show IsReal (aggK m ρ c (ix2 p k))
  unfold aggK
  rw [hagg]
  exact Cert.KernelIdeal.AggReal.agg_real _ _ iS iD _ h0 h1 Cert.KernelIdeal.AggReal.zeros_real p k

/-- The mean scale has real entries under the precondition. -/
theorem scale_real (hpre : Cert.Pre_KernelIdeal m) (c : Dev nD) (q : Fin 128) :
    IsReal ((m ((c : Thread nD τ).loc main_arg10) : S128.Idx → EReal) (ix1 q)) := by
  obtain ⟨h0, h1, h2, h3, h4, h5, h6, h7, h8, h9, h10⟩ := Cert.FiniteInputs.inputs_real _ _ _ _ _ _ _ _ _ _ _ _ (hpre c)
  exact h10 _

theorem cN_nat : Spec.cN = (((50000 : ℕ) : ℝ) : EReal) := by rw [Spec.cN_eq]; norm_num

/-- From memories agreeing on the arguments both programs run to the end with the same result array and unchanged
    arguments. -/
theorem algebraic : Cert.algebraic_KernelIdeal_ReferenceIdeal := by
  intro m ρ m' ρ' hpre hagree
  refine ⟨fun c => W4 m ρ c (Proc.devRef .tc main_v37), Cert.KernelIdeal.RunValue.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v72_eq, a0, a1, a2, a3, a4, a5, a6, a7, a8, a9, a10, a11]
  funext i
  obtain ⟨p, q, rfl⟩ : ∃ (p : Fin 50000) (q : Fin 128), i = ix2 p q := ⟨i 0, i 1, eq_ix2 i⟩
  refine (Cert.RefSide.result_at _ _ _ _ _ _ _ _ _ _ _ _ p q).trans ?_
  refine Eq.trans ?_ (kernel_at m ρ c p q).symm
  rw [Spec.result_eq cN_nat (by norm_num) (Yk m ρ c) _ _ _ _ (fun r k => Yk_real m ρ hpre c r k) (fun j => scale_real m hpre c j) p q]
  unfold Yk
  rw [agg_eq]

end Cert.Bridge

end
-- ==== Proof.lean ====
/-
  A graph-network block — sum over each node's incoming edges of (source node features + edge features), a two-layer
  perceptron, a normalisation of each node's 128 features, a normalisation of each feature over the 50000 nodes about
  a scaled mean, a clamp at zero and a residual — computed by a kernel of two pipelined regions and by a plain
  array program, gives the same result array on the extended reals whenever the inputs are finite.

  The kernel forms the column statistics from two running sums (Σ y and Σ y², accumulated over five blocks of rows)
  and expands the variance, V = (Σ y²)/N − M²·a·(2 − a); the array program centres first, V = (Σ (y − a·M)²)/N. The two
  are one number once every y and a are real, which the finiteness of the inputs gives: the aggregate is a finite sum
  of reals, the perceptron keeps reals real, and a row's variance plus ε is a positive real. Everything else the two
  programs do is the same function of the same arrays; sums over rows regroup freely on the extended reals.

  The three runs terminate without a fault and leave the arguments unchanged; no rewrite was applied to the kernel's
  text to idealize it.
-/
import proofs.«121748_j11862699671900_2_alg».proof.Defs
import proofs.«121748_j11862699671900_2_alg».proof.Proof.Gen.Kernel
import proofs.«121748_j11862699671900_2_alg».proof.Proof.Gen.Kernel.Skeleton
import proofs.«121748_j11862699671900_2_alg».proof.Proof.Gen.Kernel.Launch
import proofs.«121748_j11862699671900_2_alg».proof.Proof.Gen.Kernel.Points
import proofs.«121748_j11862699671900_2_alg».proof.Proof.Gen.Kernel.Frame
import proofs.«121748_j11862699671900_2_alg».proof.Proof.Gen.KernelIdeal
import proofs.«121748_j11862699671900_2_alg».proof.Proof.Gen.KernelIdeal.Skeleton
import proofs.«121748_j11862699671900_2_alg».proof.Proof.Gen.KernelIdeal.Launch
import proofs.«121748_j11862699671900_2_alg».proof.Proof.Gen.KernelIdeal.Points
import proofs.«121748_j11862699671900_2_alg».proof.Proof.Gen.KernelIdeal.Frame
import proofs.«121748_j11862699671900_2_alg».proof.Proof.Gen.ReferenceIdeal
import proofs.«121748_j11862699671900_2_alg».proof.Proof.Gen.Pre_finite_inputs
import proofs.«121748_j11862699671900_2_alg».proof.Proof.RefRun
import proofs.«121748_j11862699671900_2_alg».proof.Proof.Bridge
import Idealize.ShloMosaic.Adequacy
import Idealize.ShloMosaic.Init

noncomputable section

namespace Cert.Proof

open Idealize.ShloMosaic Idealize.SL.Sem Cert.Kernel

/-- The word-level kernel runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the array program: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Bridge.algebraic⟩

end Cert.Proof

end
